-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part8 {F : FTy → Type} [FloatOps F] (main_arg28 : FVec F S2048 .f32) (main_v133 : IVec S_ 1) (main_v136 : IVec S2048x2048 1) : IVec S_ 1 :=
  let main_c_53 : IVec S_ 1 := constantI S_ 1 1#1
  let main_v137 : IVec S_ 1 := (fun x v => Host.reduce IntOp.andi x v reducesTo_S2048x2048_S_d0_1 h_S_) main_v136 main_c_53
  let main_v138 : IVec S_ 1 := andi main_v133 main_v137
  let main_v139 : FVec F S2048 .f32 := Host.absf main_arg28
  let main_cst_54 : FVec F S_ .f32 := constant S_ .f32 0x7F800000#32
  let main_v140 : FVec F S2048 .f32 := broadcastInDim S2048 ![] bcast_S_S2048 main_cst_54
  let main_v141 : IVec S2048 1 := cmpf .olt main_v139 main_v140
  let main_c_55 : IVec S_ 1 := constantI S_ 1 1#1
  let main_v142 : IVec S_ 1 := (fun x v => Host.reduce IntOp.andi x v reducesTo_S2048_S_d0 h_S_) main_v141 main_c_55
  let main_v143 : IVec S_ 1 := andi main_v138 main_v142
  main_v143

def fn_part7 {F : FTy → Type} [FloatOps F] (main_arg25 : FVec F S2048x2048 .f32) (main_arg26 : FVec F S2048 .f32) (main_arg27 : FVec F S2048x2048 .f32) (main_arg28 : FVec F S2048 .f32) (main_v118 : IVec S_ 1) (main_v119 : FVec F S2048 .f32) : IVec S_ 1 :=
  let main_cst_46 : FVec F S_ .f32 := constant S_ .f32 0x7F800000#32
  let main_v120 : FVec F S2048 .f32 := broadcastInDim S2048 ![] bcast_S_S2048 main_cst_46
  let main_v121 : IVec S2048 1 := cmpf .olt main_v119 main_v120
  let main_c_47 : IVec S_ 1 := constantI S_ 1 1#1
  let main_v122 : IVec S_ 1 := (fun x v => Host.reduce IntOp.andi x v reducesTo_S2048_S_d0 h_S_) main_v121 main_c_47
  let main_v123 : IVec S_ 1 := andi main_v118 main_v122
  let main_v124 : FVec F S2048x2048 .f32 := Host.absf main_arg25
  let main_cst_48 : FVec F S_ .f32 := constant S_ .f32 0x7F800000#32
  let main_v125 : FVec F S2048x2048 .f32 := broadcastInDim S2048x2048 ![] bcast_S_S2048x2048 main_cst_48
  let main_v126 : IVec S2048x2048 1 := cmpf .olt main_v124 main_v125
  let main_c_49 : IVec S_ 1 := constantI S_ 1 1#1
  let main_v127 : IVec S_ 1 := (fun x v => Host.reduce IntOp.andi x v reducesTo_S2048x2048_S_d0_1 h_S_) main_v126 main_c_49
  let main_v128 : IVec S_ 1 := andi main_v123 main_v127
  let main_v129 : FVec F S2048 .f32 := Host.absf main_arg26
  let main_cst_50 : FVec F S_ .f32 := constant S_ .f32 0x7F800000#32
  let main_v130 : FVec F S2048 .f32 := broadcastInDim S2048 ![] bcast_S_S2048 main_cst_50
  let main_v131 : IVec S2048 1 := cmpf .olt main_v129 main_v130
  let main_c_51 : IVec S_ 1 := constantI S_ 1 1#1
  let main_v132 : IVec S_ 1 := (fun x v => Host.reduce IntOp.andi x v reducesTo_S2048_S_d0 h_S_) main_v131 main_c_51
  let main_v133 : IVec S_ 1 := andi main_v128 main_v132
  let main_v134 : FVec F S2048x2048 .f32 := Host.absf main_arg27
  let main_cst_52 : FVec F S_ .f32 := constant S_ .f32 0x7F800000#32
  let main_v135 : FVec F S2048x2048 .f32 := broadcastInDim S2048x2048 ![] bcast_S_S2048x2048 main_cst_52
  let main_v136 : IVec S2048x2048 1 := cmpf .olt main_v134 main_v135
  fn_part8 (F := F) main_arg28 main_v133 main_v136

def fn_part6 {F : FTy → Type} [FloatOps F] (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048x2048 .f32 := Host.absf main_arg21
  let main_cst_40 : FVec F S_ .f32 := constant S_ .f32 0x7F800000#32
  let main_v105 : FVec F S2048x2048 .f32 := broadcastInDim S2048x2048 ![] bcast_S_S2048x2048 main_cst_40
  let main_v106 : IVec S2048x2048 1 := cmpf .olt main_v104 main_v105
  let main_c_41 : IVec S_ 1 := constantI S_ 1 1#1
  let main_v107 : IVec S_ 1 := (fun x v => Host.reduce IntOp.andi x v reducesTo_S2048x2048_S_d0_1 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S2048x2048 .f32 := Host.absf main_arg23
  let main_cst_44 : FVec F S_ .f32 := constant S_ .f32 0x7F800000#32
  let main_v115 : FVec F S2048x2048 .f32 := broadcastInDim S2048x2048 ![] bcast_S_S2048x2048 main_cst_44
  let main_v116 : IVec S2048x2048 1 := cmpf .olt main_v114 main_v115
  let main_c_45 : IVec S_ 1 := constantI S_ 1 1#1
  let main_v117 : IVec S_ 1 := (fun x v => Host.reduce IntOp.andi x v reducesTo_S2048x2048_S_d0_1 h_S_) main_v116 main_c_45
  let main_v118 : IVec S_ 1 := andi main_v113 main_v117
  let main_v119 : FVec F S2048 .f32 := Host.absf main_arg24
  fn_part7 (F := F) main_arg25 main_arg26 main_arg27 main_arg28 main_v118 main_v119

def fn_part5 {F : FTy → Type} [FloatOps F] (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x2048 .f32 := Host.absf main_arg19
  let main_cst_36 : FVec F S_ .f32 := constant S_ .f32 0x7F800000#32
  let main_v95 : FVec F S2048x2048 .f32 := broadcastInDim S2048x2048 ![] bcast_S_S2048x2048 main_cst_36
  let main_v96 : IVec S2048x2048 1 := cmpf .olt main_v94 main_v95
  let main_c_37 : IVec S_ 1 := constantI S_ 1 1#1
  let main_v97 : IVec S_ 1 := (fun x v => Host.reduce IntOp.andi x v reducesTo_S2048x2048_S_d0_1 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_arg25 : FVec F S2048x2048 .f32) (main_arg26 : FVec F S2048 .f32) (main_arg27 : FVec F S2048x2048 .f32) (main_arg28 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S128x256 : Shape := ⟨2, ![128, 256]⟩
abbrev S128x2048 : Shape := ⟨2, ![128, 2048]⟩
abbrev S256x2048 : Shape := ⟨2, ![256, 2048]⟩

abbrev nBuf : Space → Nat
  | .hbm => 57
  | .vmem => 32
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x2048, .f32⟩
  | .hbm, ⟨22, _⟩ => ⟨S2048, .f32⟩
  | .hbm, ⟨23, _⟩ => ⟨S2048x2048, .f32⟩
  | .hbm, ⟨24, _⟩ => ⟨S2048, .f32⟩
  | .hbm, ⟨25, _⟩ => ⟨S2048x2048, .f32⟩
  | .hbm, ⟨26, _⟩ => ⟨S2048, .f32⟩
  | .hbm, ⟨27, _⟩ => ⟨S2048x2048, .f32⟩
  | .hbm, ⟨28, _⟩ => ⟨S2048, .f32⟩
  | .hbm, ⟨29, _⟩ => ⟨S2048x2048, .f32⟩
  | .hbm, ⟨30, _⟩ => ⟨S2048x2048, .bf16⟩
  | .hbm, ⟨31, _⟩ => ⟨S2048x2048, .f32⟩
  | .hbm, ⟨32, _⟩ => ⟨S2048x2048, .bf16⟩
  | .hbm, ⟨33, _⟩ => ⟨S2048x2048, .f32⟩
  | .hbm, ⟨34, _⟩ => ⟨S2048x2048, .bf16⟩
  | .hbm, ⟨35, _⟩ => ⟨S2048x2048, .f32⟩
  | .hbm, ⟨36, _⟩ => ⟨S2048x2048, .bf16⟩
  | .hbm, ⟨37, _⟩ => ⟨S2048x2048, .f32⟩
  | .hbm, ⟨38, _⟩ => ⟨S2048x2048, .bf16⟩
  | .hbm, ⟨39, _⟩ => ⟨S2048x2048, .f32⟩
  | .hbm, ⟨40, _⟩ => ⟨S2048x2048, .bf16⟩
  | .hbm, ⟨41, _⟩ => ⟨S2048x2048, .f32⟩
  | .hbm, ⟨42, _⟩ => ⟨S2048x2048, .bf16⟩
  | .hbm, ⟨43, _⟩ => ⟨S2048x2048, .f32⟩
  | .hbm, ⟨44, _⟩ => ⟨S2048x2048, .bf16⟩
  | .hbm, ⟨45, _⟩ => ⟨S2048x2048, .f32⟩
  | .hbm, ⟨46, _⟩ => ⟨S2048x2048, .bf16⟩
  | .hbm, ⟨47, _⟩ => ⟨S2048, .f32⟩
  | .hbm, ⟨48, _⟩ => ⟨S1x2048, .f32⟩
  | .hbm, ⟨49, _⟩ => ⟨S2048, .f32⟩
  | .hbm, ⟨50, _⟩ => ⟨S2048, .f32⟩
  | .hbm, ⟨51, _⟩ => ⟨S1x2048, .f32⟩
  | .hbm, ⟨52, _⟩ => ⟨S2048, .f32⟩
  | .hbm, ⟨53, _⟩ => ⟨S2048, .f32⟩
  | .hbm, ⟨54, _⟩ => ⟨S1x2048, .f32⟩
  | .hbm, ⟨55, _⟩ => ⟨S1x2048, .f32⟩
  | .hbm, ⟨56, _⟩ => ⟨S4096x2048, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x2048, .f32⟩
  | .local _ .vmem, ⟨5, _⟩ => ⟨S128x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S2048x2048, .bf16⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | .local _ .vmem, ⟨31, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let c0_4 : Index := 0#32
  let arg1 : BitVec 32 := BitVec.ofNat 32 (i 1).val
  let c256_i32 : BitVec 32 := 256#32
  let v3 : BitVec 32 := Scalar.muli arg1 c256_i32
  let v4 : BitVec 32 := v3
  let v9 : Index := Scalar.indexCast v4
  ![0, v9.toNat]
def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_40 : BitVec 32 := 0#32
  let v58 : BitVec 1 := Scalar.cmpi .ne v57 c0_i32_40
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x256_S128x256_0_0 : ∀ a, (![0, 0] : Fin 2 → Nat) a + S128x256.size a ≤ S128x256.size a
  h_S128x256 : 0 < S128x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S128x256_S256x2048_S128x2048_1_0_0_1_n_n_wf : DotDims.WF S128x256 S256x2048 S128x2048 [1] [0] [0] [1] [] []
  dot_S128x2048_S2048x2048_S128x2048_1_0_0_1_n_n_wf : DotDims.WF S128x2048 S2048x2048 S128x2048 [1] [0] [0] [1] [] []
  hrank0 : 0 < grid0.rank
  k0_mult1_dvd : ∀ i : grid0.Coords, 256 ∣ (k0_mult1 i).toNat
  k0_off1_inb : ∀ i : grid0.Coords, ∀ a, (k0_off1 i) a + S128x256.size a ≤ S128x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x2048.size a
  hwx0_0 : ∀ i : grid0.Coords, EltTy.bits .f32 = 32 ∨ (Rect.block (s := S4096x2048) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S4096x2048.size a
  hwx0_1 : ∀ i : grid0.Coords, EltTy.bits .f32 = 32 ∨ (Rect.block (s := S4096x2048) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x2048.size a ≤ S2048x2048.size a
  hwx0_11 : ∀ i : grid0.Coords, EltTy.bits .bf16 = 32 ∨ (Rect.block (s := S2048x2048) S2048x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2048.size a ≤ S1x2048.size a
  hwx0_13 : ∀ i : grid0.Coords, EltTy.bits .f32 = 32 ∨ (Rect.block (s := S1x2048) S1x2048.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2048.size a ≤ S1x2048.size a
  hwx0_14 : ∀ i : grid0.Coords, EltTy.bits .f32 = 32 ∨ (Rect.block (s := S1x2048) S1x2048.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x2048.size a ≤ S1x2048.size a
  hwx0_15 : ∀ i : grid0.Coords, EltTy.bits .f32 = 32 ∨ (Rect.block (s := S1x2048) S1x2048.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x2048.size a ≤ S4096x2048.size a
  hwx0_16 : ∀ i : grid0.Coords, EltTy.bits .f32 = 32 ∨ (Rect.block (s := S4096x2048) S128x2048.size (cc0_transform_16 i) (hinb0_16 i)).WholeWords (EltTy.packing .f32)

variable [Facts₀]

def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v17) S2048x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S1x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S1x2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v26) S1x2048.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v27) S128x2048.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond2 i == 1#1) | ⟨_ + 17, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 143
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S2048x2048, .f32⟩
  | 4 => ⟨S2048, .f32⟩
  | 5 => ⟨S2048x2048, .f32⟩
  | 6 => ⟨S2048, .f32⟩
  | 7 => ⟨S2048x2048, .f32⟩
  | 8 => ⟨S2048, .f32⟩
  | 9 => ⟨S2048x2048, .f32⟩
  | 10 => ⟨S2048, .f32⟩
  | 11 => ⟨S2048x2048, .f32⟩
  | 12 => ⟨S2048, .f32⟩
  | 13 => ⟨S2048x2048, .f32⟩
  | 14 => ⟨S2048, .f32⟩
  | 15 => ⟨S2048x2048, .f32⟩
  | 16 => ⟨S2048, .f32⟩
  | 17 => ⟨S2048x2048, .f32⟩
  | 18 => ⟨S2048, .f32⟩
  | 19 => ⟨S2048x2048, .f32⟩
  | 20 => ⟨S2048, .f32⟩
  | 21 => ⟨S2048x2048, .f32⟩
  | 22 => ⟨S2048, .f32⟩
  | 23 => ⟨S2048x2048, .f32⟩
  | 24 => ⟨S2048, .f32⟩
  | 25 => ⟨S2048x2048, .f32⟩
  | 26 => ⟨S2048, .f32⟩
  | 27 => ⟨S2048x2048, .f32⟩
  | 28 => ⟨S2048, .f32⟩
  | 29 => ⟨S2048x2048, .f32⟩
  | 30 => ⟨S4096x2048, .f32⟩
  | 31 => ⟨S1x2048, .f32⟩
  | 32 => ⟨S4096x2048, .f32⟩
  | 33 => ⟨S4096x2048, .f32⟩
  | 34 => ⟨S2048x2048, .f32⟩
  | 35 => ⟨S4096x2048, .f32⟩
  | 36 => ⟨S1x2048, .f32⟩
  | 37 => ⟨S4096x2048, .f32⟩
  | 38 => ⟨S4096x2048, .f32⟩
  | 39 => ⟨S4096x2048, .f32⟩
  | 40 => ⟨S4096x2048, .f32⟩
  | 41 => ⟨S4096x2048, .f32⟩
  | 42 => ⟨S_, .f32⟩
  | 43 => ⟨S4096x2048, .f32⟩
  | 44 => ⟨S4096x2048, .f32⟩
  | 45 => ⟨S_, .f32⟩
  | 46 => ⟨S4096x2048, .f32⟩
  | 47 => ⟨S4096x2048, .f32⟩
  | 48 => ⟨S2048x2048, .f32⟩
  | 49 => ⟨S4096x2048, .f32⟩
  | 50 => ⟨S1x2048, .f32⟩
  | 51 => ⟨S4096x2048, .f32⟩
  | 52 => ⟨S4096x2048, .f32⟩
  | 53 => ⟨S2048x2048, .f32⟩
  | 54 => ⟨S4096x2048, .f32⟩
  | 55 => ⟨S1x2048, .f32⟩
  | 56 => ⟨S4096x2048, .f32⟩
  | 57 => ⟨S4096x2048, .f32⟩
  | 58 => ⟨S4096x2048, .f32⟩
  | 59 => ⟨S2048x2048, .f32⟩
  | 60 => ⟨S4096x2048, .f32⟩
  | 61 => ⟨S1x2048, .f32⟩
  | 62 => ⟨S4096x2048, .f32⟩
  | 63 => ⟨S4096x2048, .f32⟩
  | 64 => ⟨S4096x2048, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S_, .f32⟩
  | 71 => ⟨S4096x2048, .f32⟩
  | 72 => ⟨S4096x2048, .f32⟩
  | 73 => ⟨S2048x2048, .f32⟩
  | 74 => ⟨S4096x2048, .f32⟩
  | 75 => ⟨S1x2048, .f32⟩
  | 76 => ⟨S4096x2048, .f32⟩
  | 77 => ⟨S4096x2048, .f32⟩
  | 78 => ⟨S2048x2048, .f32⟩
  | 79 => ⟨S4096x2048, .f32⟩
  | 80 => ⟨S1x2048, .f32⟩
  | 81 => ⟨S4096x2048, .f32⟩
  | 82 => ⟨S4096x2048, .f32⟩
  | 83 => ⟨S4096x2048, .f32⟩
  | 84 => ⟨S2048x2048, .f32⟩
  | 85 => ⟨S4096x2048, .f32⟩
  | 86 => ⟨S1x2048, .f32⟩
  | 87 => ⟨S4096x2048, .f32⟩
  | 88 => ⟨S4096x2048, .f32⟩
  | 89 => ⟨S4096x2048, .f32⟩
  | 90 => ⟨S4096x2048, .f32⟩
  | 91 => ⟨S4096x2048, .f32⟩
  | 92 => ⟨S_, .f32⟩
  | 93 => ⟨S4096x2048, .f32⟩
  | 94 => ⟨S4096x2048, .f32⟩
  | 95 => ⟨S_, .f32⟩
  | 96 => ⟨S4096x2048, .f32⟩
  | 97 => ⟨S4096x2048, .f32⟩
  | 98 => ⟨S4096x2048, .f32⟩
  | 99 => ⟨S2048x2048, .f32⟩
  | 100 => ⟨S4096x2048, .f32⟩
  | 101 => ⟨S1x2048, .f32⟩
  | 102 => ⟨S4096x2048, .f32⟩
  | 103 => ⟨S4096x2048, .f32⟩
  | 104 => ⟨S4096x2048, .f32⟩
  | 105 => ⟨S4096x2048, .f32⟩
  | 106 => ⟨S2048x2048, .f32⟩
  | 107 => ⟨S4096x2048, .f32⟩
  | 108 => ⟨S1x2048, .f32⟩
  | 109 => ⟨S4096x2048, .f32⟩
  | 110 => ⟨S4096x2048, .f32⟩
  | 111 => ⟨S2048x2048, .f32⟩
  | 112 => ⟨S4096x2048, .f32⟩
  | 113 => ⟨S1x2048, .f32⟩
  | 114 => ⟨S4096x2048, .f32⟩
  | 115 => ⟨S4096x2048, .f32⟩
  | 116 => ⟨S4096x2048, .f32⟩
  | 117 => ⟨S2048x2048, .f32⟩
  | 118 => ⟨S4096x2048, .f32⟩
  | 119 => ⟨S1x2048, .f32⟩
  | 120 => ⟨S4096x2048, .f32⟩
  | 121 => ⟨S4096x2048, .f32⟩
  | 122 => ⟨S4096x2048, .f32⟩
  | 123 => ⟨S4096x2048, .f32⟩
  | 124 => ⟨S4096x2048, .f32⟩
  | 125 => ⟨S_, .f32⟩
  | 126 => ⟨S4096x2048, .f32⟩
  | 127 => ⟨S4096x2048, .f32⟩
  | _ => ⟨S4096x2048, .f32⟩

abbrev hbmTy0_1 (i : Nat) : BufTy := match i % 128 with
  | 0 => ⟨S_, .f32⟩
  | 1 => ⟨S4096x2048, .f32⟩
  | 2 => ⟨S4096x2048, .f32⟩
  | 3 => ⟨S2048x2048, .f32⟩
  | 4 => ⟨S4096x2048, .f32⟩
  | 5 => ⟨S1x2048, .f32⟩
  | 6 => ⟨S4096x2048, .f32⟩
  | 7 => ⟨S4096x2048, .f32⟩
  | 8 => ⟨S4096x2048, .f32⟩
  | 9 => ⟨S_, .f32⟩
  | 10 => ⟨S4096x2048, .f32⟩
  | 11 => ⟨S4096x2048, .f32⟩
  | 12 => ⟨S4096x2048, .f32⟩
  | 13 => ⟨S4096x2048, .f32⟩
  | 14 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_cst_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_1 : Ref sig .tc := ⟨.hbm, 67, rfl⟩
abbrev main_v36 : Ref sig .tc := ⟨.hbm, 68, rfl⟩
abbrev main_v37 : Ref sig .tc := ⟨.hbm, 69, rfl⟩
abbrev main_cst_2 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_3 : Ref sig .tc := ⟨.hbm, 92, rfl⟩
abbrev main_v59 : Ref sig .tc := ⟨.hbm, 93, rfl⟩
abbrev main_v60 : Ref sig .tc := ⟨.hbm, 94, rfl⟩
abbrev main_cst_4 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_5 : Ref sig .tc := ⟨.hbm, 125, rfl⟩
abbrev main_v90 : Ref sig .tc := ⟨.hbm, 126, rfl⟩
abbrev main_v91 : Ref sig .tc := ⟨.hbm, 127, rfl⟩
abbrev main_cst_6 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_7 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  The memory-gated recurrent cell's returned state as one function of its argument arrays, on the extended reals.

  With B = 4096 rows and D = 2048 features, a linear layer is lin v W b (p, q) = (sum over k of v (p, k) * W (q, k)) + b q
  (the weight is stored [out, in], so the layer multiplies by its transpose). The cell forms three gates, each the
  logistic function of a sum of linear layers of the input x, the recurrent output out0 and the memory mem0,

    blockInp = s (lin x Wi bi + lin out0 Wri bri)
    inpGate  = s ((lin x Wig big + lin mem0 Wmig bmig) + lin out0 Wrig brig)
    readGate = s ((lin x Wrg brg + lin mem0 Wmrg bmrg) + lin out0 Wrrg brrg)

  and returns  hidden = lin (readGate * mem0) Wd bd + blockInp * inpGate.  The write gate, the encoder and the new
  memory do not enter the returned array.
-/
import Idealize.ShloMosaic.PureOps.Ideal
import Idealize.ShloMosaic.Lib.ValueIdx

noncomputable section

namespace Cert.Spec

open Idealize.ShloMosaic Idealize.ShloMosaic.ValueIdx
open scoped BigOperators

/-- Activations: 4096 rows of 2048 features. -/
abbrev Act : Type := (⟨2, ![4096, 2048]⟩ : Shape).Idx → EReal
/-- A weight matrix, stored [out, in]. -/
abbrev Wt : Type := (⟨2, ![2048, 2048]⟩ : Shape).Idx → EReal
/-- A bias vector. -/
abbrev Bs : Type := (⟨1, ![2048]⟩ : Shape).Idx → EReal

/-- The inner product of row p of v with row q of W: entry (p, q) of v times the transpose of W. -/
def dotT (v : Act) (W : Wt) (p : Fin 4096) (q : Fin 2048) : EReal :=
  ∑ k : Fin 2048, v (ix2 p k) * W (ix2 q k)

/-- One linear layer at (p, q). -/
def lin (v : Act) (W : Wt) (b : Bs) (p : Fin 4096) (q : Fin 2048) : EReal :=
  dotT v W p q + b (ix1 q)

/-- A gate fed by the input and the recurrent output. -/
def gate2 (x out0 : Act) (Wx : Wt) (bx : Bs) (Wr : Wt) (br : Bs) (p : Fin 4096) (q : Fin 2048) : EReal :=
  Ideal.logistic (lin x Wx bx p q + lin out0 Wr br p q)

/-- A gate fed by the input, the memory and the recurrent output, added in that order. -/
def gate3 (x out0 mem0 : Act) (Wx : Wt) (bx : Bs) (Wm : Wt) (bm : Bs) (Wr : Wt) (br : Bs)
    (p : Fin 4096) (q : Fin 2048) : EReal :=
  Ideal.logistic ((lin x Wx bx p q + lin mem0 Wm bm p q) + lin out0 Wr br p q)

/-- A bias at q. -/
def bias1 (b : Bs) (q : Fin 2048) : EReal := b (ix1 q)

/-- Two layers' biases added together, at q. -/
def bias2 (b1 b2 : Bs) (q : Fin 2048) : EReal := b1 (ix1 q) + b2 (ix1 q)

/-- Three layers' biases added together in order, at q. -/
def bias3 (b1 b2 b3 : Bs) (q : Fin 2048) : EReal := (b1 (ix1 q) + b2 (ix1 q)) + b3 (ix1 q)

/-- The returned state. The arguments come in the programs' order: x, out0, mem0, then weight and bias of the input
    gate's three layers (input, recurrent, memory), of the block input's two (input, recurrent), of the read gate's
    three (input, recurrent, memory), and of the decoder. -/
def hidden (x out0 mem0 : Act) (Wig : Wt) (big : Bs) (Wrig : Wt) (brig : Bs) (Wmig : Wt) (bmig : Bs)
    (Wi : Wt) (bi : Bs) (Wri : Wt) (bri : Bs) (Wrg : Wt) (brg : Bs) (Wrrg : Wt) (brrg : Bs) (Wmrg : Wt) (bmrg : Bs)
    (Wd : Wt) (bd : Bs) : Act := fun i =>
  ((∑ k : Fin 2048, (gate3 x out0 mem0 Wrg brg Wmrg bmrg Wrrg brrg (i 0) k * mem0 (ix2 (i 0) k)) * Wd (ix2 (i 1) k))
      + bd (ix1 (i 1)))
    + gate2 x out0 Wi bi Wri bri (i 0) (i 1) * gate3 x out0 mem0 Wig big Wmig bmig Wrig brig (i 0) (i 1)

end Cert.Spec

end
-- ==== Proof.RefSpec.lean ====
/-
  The reference program's result, read one operation at a time, is the specification.

  Each of its linear layers is a transposed weight, a whole product, and a bias broadcast first to a row and then down
  the rows: entry (p, q) is the inner product of row p of the activations with row q of the weight, plus the bias at q.
  It spells the logistic function as 1 / (1 + exp (-z)) with the constant 1.0, which is that function on the
  extended reals. The gates, the decoder's layer and the final sum are then the specification's, term for term.
-/
import proofs.«132862_j54262616818001_2_alg».proof.Proof.Gen.ReferenceIdeal.Read
import proofs.«132862_j54262616818001_2_alg».proof.Proof.Spec
import Idealize.ShloMosaic.Lib.IdealHost

noncomputable section

namespace Cert.ReferenceIdeal.RefSpec

open Cert.ReferenceIdeal Cert.ReferenceIdeal.Gen Cert.ReferenceIdeal.Read Idealize.ShloMosaic Idealize.ShloMosaic.ValueIdx
open scoped BigOperators

/-- The reference's spelling of the logistic function. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

/-- A linear layer of the reference at an index. -/
theorem lin_v4 (x0 : (⟨S4096x2048, .f32⟩ : BufTy).Contents (Elt Ideal)) (x9 : (⟨S2048x2048, .f32⟩ : BufTy).Contents (Elt Ideal)) (x10 : (⟨S2048, .f32⟩ : BufTy).Contents (Elt Ideal)) (i : S4096x2048.Idx) :
    val_main_v4 (F := Ideal) x0 x9 x10 i = Cert.Spec.lin x0 x9 x10 (i 0) (i 1) := by
  simp only [val_main_v4_apply, val_main_v1_apply, val_main_v0_apply, val_main_v3_apply, val_main_v2_apply, Ideal.addf_def]
  unfold Cert.Spec.lin Cert.Spec.dotT
  have e1 : ∀ k : Fin 2048, lidx_main_v1 i k = ix2 (i 0) k := fun k => funext fun a => by
    match a with
    | ⟨0, _⟩ => rfl
    | ⟨1, _⟩ => rfl
  have e2 : ∀ k : Fin 2048, idx_main_v0 (ridx_main_v1 i k) = ix2 (i 1) k := fun k => funext fun a => by
    match a with
    | ⟨0, _⟩ => rfl
    | ⟨1, _⟩ => rfl
  have e3 : idx_main_v2 (idx_main_v3 i) = ix1 (i 1) := funext fun a => by
    match a with
    | ⟨0, _⟩ => rfl
  simp only [e1, e2, e3] <;> rfl

/-- A linear layer of the reference at an index. -/
theorem lin_v9 (x1 : (⟨S4096x2048, .f32⟩ : BufTy).Contents (Elt Ideal)) (x11 : (⟨S2048x2048, .f32⟩ : BufTy).Contents (Elt Ideal)) (x12 : (⟨S2048, .f32⟩ : BufTy).Contents (Elt Ideal)) (i : S4096x2048.Idx) :
    val_main_v9 (F := Ideal) x1 x11 x12 i = Cert.Spec.lin x1 x11 x12 (i 0) (i 1) := by
  simp only [val_main_v9_apply, val_main_v6_apply, val_main_v5_apply, val_main_v8_apply, val_main_v7_apply, Ideal.addf_def]
  unfold Cert.Spec.lin Cert.Spec.dotT
  have e1 : ∀ k : Fin 2048, lidx_main_v6 i k = ix2 (i 0) k := fun k => funext fun a => by
    match a with
    | ⟨0, _⟩ => rfl
    | ⟨1, _⟩ => rfl
  have e2 : ∀ k : Fin 2048, idx_main_v5 (ridx_main_v6 i k) = ix2 (i 1) k := fun k => funext fun a => by
    match a with
    | ⟨0, _⟩ => rfl
    | ⟨1, _⟩ => rfl
  have e3 : idx_main_v7 (idx_main_v8 i) = ix1 (i 1) := funext fun a => by
    match a with
    | ⟨0, _⟩ => rfl
  simp only [e1, e2, e3] <;> rfl

/-- A linear layer of the reference at an index. -/
theorem lin_v21 (x0 : (⟨S4096x2048, .f32⟩ : BufTy).Contents (Elt Ideal)) (x3 : (⟨S2048x2048, .f32⟩ : BufTy).Contents (Elt Ideal)) (x4 : (⟨S2048, .f32⟩ : BufTy).Contents (Elt Ideal)) (i : S4096x2048.Idx) :
    val_main_v21 (F := Ideal) x0 x3 x4 i = Cert.Spec.lin x0 x3 x4 (i 0) (i 1) := by
  simp only [val_main_v21_apply, val_main_v18_apply, val_main_v17_apply, val_main_v20_apply, val_main_v19_apply, Ideal.addf_def]
  unfold Cert.Spec.lin Cert.Spec.dotT
  have e1 : ∀ k : Fin 2048, lidx_main_v18 i k = ix2 (i 0) k := fun k => funext fun a => by
    match a with
    | ⟨0, _⟩ => rfl
    | ⟨1, _⟩ => rfl
  have e2 : ∀ k : Fin 2048, idx_main_v17 (ridx_main_v18 i k) = ix2 (i 1) k := fun k => funext fun a => by
    match a with
    | ⟨0, _⟩ => rfl
    | ⟨1, _⟩ => rfl
  have e3 : idx_main_v19 (idx_main_v20 i) = ix1 (i 1) := funext fun a => by
    match a with
    | ⟨0, _⟩ => rfl
  simp only [e1, e2, e3] <;> rfl

/-- A linear layer of the reference at an index. -/
theorem lin_v26 (x2 : (⟨S4096x2048, .f32⟩ : BufTy).Contents (Elt Ideal)) (x7 : (⟨S2048x2048, .f32⟩ : BufTy).Contents (Elt Ideal)) (x8 : (⟨S2048, .f32⟩ : BufTy).Contents (Elt Ideal)) (i : S4096x2048.Idx) :
    val_main_v26 (F := Ideal) x2 x7 x8 i = Cert.Spec.lin x2 x7 x8 (i 0) (i 1) := by
  simp only [val_main_v26_apply, val_main_v23_apply, val_main_v22_apply, val_main_v25_apply, val_main_v24_apply, Ideal.addf_def]
  unfold Cert.Spec.lin Cert.Spec.dotT
  have e1 : ∀ k : Fin 2048, lidx_main_v23 i k = ix2 (i 0) k := fun k => funext fun a => by
    match a with
    | ⟨0, _⟩ => rfl
    | ⟨1, _⟩ => rfl
  have e2 : ∀ k : Fin 2048, idx_main_v22 (ridx_main_v23 i k) = ix2 (i 1) k := fun k => funext fun a => by
    match a with
    | ⟨0, _⟩ => rfl
    | ⟨1, _⟩ => rfl
  have e3 : idx_main_v24 (idx_main_v25 i) = ix1 (i 1) := funext fun a => by
    match a with
    | ⟨0, _⟩ => rfl
  simp only [e1, e2, e3] <;> rfl

/-- A linear layer of the reference at an index. -/
theorem lin_v32 (x1 : (⟨S4096x2048, .f32⟩ : BufTy).Contents (Elt Ideal)) (x5 : (⟨S2048x2048, .f32⟩ : BufTy).Contents (Elt Ideal)) (x6 : (⟨S2048, .f32⟩ : BufTy).Contents (Elt Ideal)) (i : S4096x2048.Idx) :
    val_main_v32 (F := Ideal) x1 x5 x6 i = Cert.Spec.lin x1 x5 x6 (i 0) (i 1) := by
  simp only [val_main_v32_apply, val_main_v29_apply, val_main_v28_apply, val_main_v31_apply, val_main_v30_apply, Ideal.addf_def]
  unfold Cert.Spec.lin Cert.Spec.dotT
  have e1 : ∀ k : Fin 2048, lidx_main_v29 i k = ix2 (i 0) k := fun k => funext fun a => by
    match a with
    | ⟨0, _⟩ => rfl
    | ⟨1, _⟩ => rfl
  have e2 : ∀ k : Fin 2048, idx_main_v28 (ridx_main_v29 i k) = ix2 (i 1) k := fun k => funext fun a => by
    match a with
    | ⟨0, _⟩ => rfl
    | ⟨1, _⟩ => rfl
  have e3 : idx_main_v30 (idx_main_v31 i) = ix1 (i 1) := funext fun a => by
    match a with
    | ⟨0, _⟩ => rfl
  simp only [e1, e2, e3] <;> rfl

/-- A linear layer of the reference at an index. -/
theorem lin_v44 (x0 : (⟨S4096x2048, .f32⟩ : BufTy).Contents (Elt Ideal)) (x13 : (⟨S2048x2048, .f32⟩ : BufTy).Contents (Elt Ideal)) (x14 : (⟨S2048, .f32⟩ : BufTy).Contents (Elt Ideal)) (i : S4096x2048.Idx) :
    val_main_v44 (F := Ideal) x0 x13 x14 i = Cert.Spec.lin x0 x13 x14 (i 0) (i 1) := by
  simp only [val_main_v44_apply, val_main_v41_apply, val_main_v40_apply, val_main_v43_apply, val_main_v42_apply, Ideal.addf_def]
  unfold Cert.Spec.lin Cert.Spec.dotT
  have e1 : ∀ k : Fin 2048, lidx_main_v41 i k = ix2 (i 0) k := fun k => funext fun a => by
    match a with
    | ⟨0, _⟩ => rfl
    | ⟨1, _⟩ => rfl
  have e2 : ∀ k : Fin 2048, idx_main_v40 (ridx_main_v41 i k) = ix2 (i 1) k := fun k => funext fun a => by
    match a with
    | ⟨0, _⟩ => rfl
    | ⟨1, _⟩ => rfl
  have e3 : idx_main_v42 (idx_main_v43 i) = ix1 (i 1) := funext fun a => by
    match a with
    | ⟨0, _⟩ => rfl
  simp only [e1, e2, e3] <;> rfl

/-- A linear layer of the reference at an index. -/
theorem lin_v49 (x2 : (⟨S4096x2048, .f32⟩ : BufTy).Contents (Elt Ideal)) (x17 : (⟨S2048x2048, .f32⟩ : BufTy).Contents (Elt Ideal)) (x18 : (⟨S2048, .f32⟩ : BufTy).Contents (Elt Ideal)) (i : S4096x2048.Idx) :
    val_main_v49 (F := Ideal) x2 x17 x18 i = Cert.Spec.lin x2 x17 x18 (i 0) (i 1) := by
  simp only [val_main_v49_apply, val_main_v46_apply, val_main_v45_apply, val_main_v48_apply, val_main_v47_apply, Ideal.addf_def]
  unfold Cert.Spec.lin Cert.Spec.dotT
  have e1 : ∀ k : Fin 2048, lidx_main_v46 i k = ix2 (i 0) k := fun k => funext fun a => by
    match a with
    | ⟨0, _⟩ => rfl
    | ⟨1, _⟩ => rfl
  have e2 : ∀ k : Fin 2048, idx_main_v45 (ridx_main_v46 i k) = ix2 (i 1) k := fun k => funext fun a => by
    match a with
    | ⟨0, _⟩ => rfl
    | ⟨1, _⟩ => rfl
  have e3 : idx_main_v47 (idx_main_v48 i) = ix1 (i 1) := funext fun a => by
    match a with
    | ⟨0, _⟩ => rfl
  simp only [e1, e2, e3] <;> rfl

/-- A linear layer of the reference at an index. -/
theorem lin_v55 (x1 : (⟨S4096x2048, .f32⟩ : BufTy).Contents (Elt Ideal)) (x15 : (⟨S2048x2048, .f32⟩ : BufTy).Contents (Elt Ideal)) (x16 : (⟨S2048, .f32⟩ : BufTy).Contents (Elt Ideal)) (i : S4096x2048.Idx) :
    val_main_v55 (F := Ideal) x1 x15 x16 i = Cert.Spec.lin x1 x15 x16 (i 0) (i 1) := by
  simp only [val_main_v55_apply, val_main_v52_apply, val_main_v51_apply, val_main_v54_apply, val_main_v53_apply, Ideal.addf_def]
  unfold Cert.Spec.lin Cert.Spec.dotT
  have e1 : ∀ k : Fin 2048, lidx_main_v52 i k = ix2 (i 0) k := fun k => funext fun a => by
    match a with
    | ⟨0, _⟩ => rfl
    | ⟨1, _⟩ => rfl
  have e2 : ∀ k : Fin 2048, idx_main_v51 (ridx_main_v52 i k) = ix2 (i 1) k := fun k => funext fun a => by
    match a with
    | ⟨0, _⟩ => rfl
    | ⟨1, _⟩ => rfl
  have e3 : idx_main_v53 (idx_main_v54 i) = ix1 (i 1) := funext fun a => by
    match a with
    | ⟨0, _⟩ => rfl
  simp only [e1, e2, e3] <;> rfl

/-- The reference's expanded logistic function of a pre-activation, at an index. -/
theorem sig_v16 (x0 x1 : (⟨S4096x2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (i : S4096x2048.Idx) :
    val_main_v16 (F := Ideal) x0 x1 x9 x10 x11 x12 i = Ideal.logistic (val_main_v10 (F := Ideal) x0 x1 x9 x10 x11 x12 i) := by
  simp only [val_main_v16_apply, val_main_v15_apply, val_main_cst_0_apply, val_main_v14_apply, val_main_v13_apply, val_main_cst_apply, val_main_v12_apply, val_main_v11_apply, Ideal.hostDivf_def, Ideal.ofBits_def, Ideal.addf_def,
    Ideal.hostUnary_exp_def, Ideal.hostNegf_def, Ideal.negf_def]
  exact logistic_spelt _

/-- The reference's expanded logistic function of a pre-activation, at an index. -/
theorem sig_v39 (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (i : S4096x2048.Idx) :
    val_main_v39 (F := Ideal) x0 x1 x2 x3 x4 x5 x6 x7 x8 i = Ideal.logistic (val_main_v33 (F := Ideal) x0 x1 x2 x3 x4 x5 x6 x7 x8 i) := by
  simp only [val_main_v39_apply, val_main_v38_apply, val_main_cst_2_apply, val_main_v37_apply, val_main_v36_apply, val_main_cst_1_apply, val_main_v35_apply, val_main_v34_apply, Ideal.hostDivf_def, Ideal.ofBits_def, Ideal.addf_def,
    Ideal.hostUnary_exp_def, Ideal.hostNegf_def, Ideal.negf_def]
  exact logistic_spelt _

/-- The reference's expanded logistic function of a pre-activation, at an index. -/
theorem sig_v62 (x0 x1 x2 : (⟨S4096x2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (i : S4096x2048.Idx) :
    val_main_v62 (F := Ideal) x0 x1 x2 x13 x14 x15 x16 x17 x18 i = Ideal.logistic (val_main_v56 (F := Ideal) x0 x1 x2 x13 x14 x15 x16 x17 x18 i) := by
  simp only [val_main_v62_apply, val_main_v61_apply, val_main_cst_4_apply, val_main_v60_apply, val_main_v59_apply, val_main_cst_3_apply, val_main_v58_apply, val_main_v57_apply, Ideal.hostDivf_def, Ideal.ofBits_def, Ideal.addf_def,
    Ideal.hostUnary_exp_def, Ideal.hostNegf_def, Ideal.negf_def]
  exact logistic_spelt _

/-- The block input. -/
theorem gate_v16 (x0 x1 : (⟨S4096x2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (i : S4096x2048.Idx) :
    val_main_v16 (F := Ideal) x0 x1 x9 x10 x11 x12 i = Cert.Spec.gate2 x0 x1 x9 x10 x11 x12 (i 0) (i 1) := by
  rw [sig_v16, val_main_v10_apply, lin_v4, lin_v9]
  rfl

/-- The input gate. -/
theorem gate_v39 (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (i : S4096x2048.Idx) :
    val_main_v39 (F := Ideal) x0 x1 x2 x3 x4 x5 x6 x7 x8 i = Cert.Spec.gate3 x0 x1 x2 x3 x4 x7 x8 x5 x6 (i 0) (i 1) := by
  rw [sig_v39, val_main_v33_apply, val_main_v27_apply, lin_v21, lin_v26, lin_v32]
  rfl

/-- The read gate. -/
theorem gate_v62 (x0 x1 x2 : (⟨S4096x2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (i : S4096x2048.Idx) :
    val_main_v62 (F := Ideal) x0 x1 x2 x13 x14 x15 x16 x17 x18 i = Cert.Spec.gate3 x0 x1 x2 x13 x14 x17 x18 x15 x16 (i 0) (i 1) := by
  rw [sig_v62, val_main_v56_apply, val_main_v50_apply, lin_v44, lin_v49, lin_v55]
  rfl

/-- The reference's result is the specification's function of its arguments. -/
theorem result_eq (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) :
    val_main_v70 (F := Ideal) x0 x1 x2 x3 x4 x5 x6 x7 x8 x9 x10 x11 x12 x13 x14 x15 x16 x17 x18 x19 x20 = Cert.Spec.hidden x0 x1 x2 x3 x4 x5 x6 x7 x8 x9 x10 x11 x12 x13 x14 x15 x16 x17 x18 x19 x20 := by
  funext i
  unfold Cert.Spec.hidden
  simp only [val_main_v70_apply, val_main_v68_apply, val_main_v69_apply, val_main_v65_apply, val_main_v64_apply, val_main_v63_apply, val_main_v67_apply, val_main_v66_apply, Ideal.addf_def, Ideal.mulf_def,
    gate_v16, gate_v39, gate_v62]
  have e1 : ∀ k : Fin 2048, lidx_main_v65 i k = ix2 (i 0) k := fun k => funext fun a => by
    match a with
    | ⟨0, _⟩ => rfl
    | ⟨1, _⟩ => rfl
  have e2 : ∀ k : Fin 2048, idx_main_v64 (ridx_main_v65 i k) = ix2 (i 1) k := fun k => funext fun a => by
    match a with
    | ⟨0, _⟩ => rfl
    | ⟨1, _⟩ => rfl
  have e3 : idx_main_v66 (idx_main_v67 i) = ix1 (i 1) := funext fun a => by
    match a with
    | ⟨0, _⟩ => rfl
  simp only [e1, e2, e3] <;> rfl

end Cert.ReferenceIdeal.RefSpec

end
-- ==== Proof.Pieces.lean ====
/-
  What one run of the body leaves behind, as the body's own arithmetic.

  The body keeps three running sums in scratch buffers that it reads and writes whole. At the first step of the
  contraction axis it zeroes them before adding the step's products; at every later step it adds to what the step
  before left; at the last step it also computes the output block from the three sums it has just stored. So what a
  run leaves in a scratch is the update applied to zero (first step) or to the previous contents (later steps), and
  the output block of the last step is the epilogue applied to the three updated sums.
-/
import proofs.«132862_j54262616818001_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of a whole-buffer rectangle. -/
theorem hz2 : (![0, 0] : Fin 2 → Nat) = fun _ => 0 := funext fun a => by
  match a with
  | ⟨0, _⟩ => rfl
  | ⟨1, _⟩ => rfl

/-- The step's 256 columns of the staged memory rows. -/
abbrev memSlice (i : grid0.Coords) (x2 : Vec F S128x2048 .f32) : Vec F S128x256 .f32 :=
  View.ld x2 (Rect.unit (s := S128x2048) (k0_off1 i) S128x256.size (k0_off1_inb i))

/-- The block input's running sum after a step, from what it held. -/
abbrev upd0 (x0 x1 : Vec F S128x256 .f32) (acc : Vec F S128x2048 .f32) (x6 x7 : Vec F S256x2048 .bf16) :
    Vec F S128x2048 .f32 :=
  k0_pay10 x0 x1 acc x6 x7

/-- The input gate's running sum after a step, from what it held. -/
abbrev upd1 (i : grid0.Coords) (x0 x1 : Vec F S128x256 .f32) (x2 : Vec F S128x2048 .f32)
    (x3 x4 x5 : Vec F S256x2048 .bf16) (acc : Vec F S128x2048 .f32) : Vec F S128x2048 .f32 :=
  k0_pay1 (k0_pay8 x1) (k0_pay9 (memSlice i x2)) acc (k0_pay11 x0 x3) (k0_pay12 x5)
    (constant S128x2048 .f32 0x00000000#32) x4

/-- The read gate's running sum after a step, from what it held. -/
abbrev upd2 (i : grid0.Coords) (x0 x1 : Vec F S128x256 .f32) (x2 : Vec F S128x2048 .f32)
    (x8 x9 x10 : Vec F S256x2048 .bf16) (acc : Vec F S128x2048 .f32) : Vec F S128x2048 .f32 :=
  k0_pay2 (k0_pay7 x0) (k0_pay8 x1) (k0_pay9 (memSlice i x2)) acc x8 x10 x9

/-- Scratch 0 after a run of case A. -/
theorem sout_A_0 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : cond0_0 i) (hc1 : ¬cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 = upd0 x0 x1 (k0_pay4 (F := F)) x6 x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15)]
  unfold kernelRun0_A
  dsimp only
  sl_unfold_run_names
  rw [View.canon_cons_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- Scratch 1 after a run of case A. -/
theorem sout_A_1 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : cond0_0 i) (hc1 : ¬cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 = upd1 i x0 x1 x2 x3 x4 x5 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15)]
  unfold kernelRun0_A
  dsimp only
  sl_unfold_run_names
  rw [View.canon_cons_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- Scratch 2 after a run of case A. -/
theorem sout_A_2 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : cond0_0 i) (hc1 : ¬cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 = upd2 i x0 x1 x2 x8 x9 x10 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15)]
  unfold kernelRun0_A
  dsimp only
  sl_unfold_run_names
  rw [View.canon_cons_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- Scratch 0 after a run of case B. -/
theorem sout_B_0 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : ¬cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) (xs0 : Vec F S128x2048 .f32) (xs1 : Vec F S128x2048 .f32) (xs2 : Vec F S128x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2 = upd0 x0 x1 xs0 x6 x7 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2)]
  unfold kernelRun0_B
  dsimp only
  sl_unfold_run_names
  rw [View.canon_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- Scratch 1 after a run of case B. -/
theorem sout_B_1 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : ¬cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) (xs0 : Vec F S128x2048 .f32) (xs1 : Vec F S128x2048 .f32) (xs2 : Vec F S128x2048 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2 = upd1 i x0 x1 x2 x3 x4 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2)]
  unfold kernelRun0_B
  dsimp only
  sl_unfold_run_names
  rw [View.canon_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- Scratch 2 after a run of case B. -/
theorem sout_B_2 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : ¬cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) (xs0 : Vec F S128x2048 .f32) (xs1 : Vec F S128x2048 .f32) (xs2 : Vec F S128x2048 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2 = upd2 i x0 x1 x2 x8 x9 x10 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2)]
  unfold kernelRun0_B
  dsimp only
  sl_unfold_run_names
  rw [View.canon_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- Scratch 0 after a run of case C. -/
theorem sout_C_0 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) (xs0 : Vec F S128x2048 .f32) (xs1 : Vec F S128x2048 .f32) (xs2 : Vec F S128x2048 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2 = upd0 x0 x1 xs0 x6 x7 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2)]
  unfold kernelRun0_C
  dsimp only
  sl_unfold_run_names
  rw [View.canon_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- Scratch 1 after a run of case C. -/
theorem sout_C_1 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) (xs0 : Vec F S128x2048 .f32) (xs1 : Vec F S128x2048 .f32) (xs2 : Vec F S128x2048 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2 = upd1 i x0 x1 x2 x3 x4 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2)]
  unfold kernelRun0_C
  dsimp only
  sl_unfold_run_names
  rw [View.canon_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- Scratch 2 after a run of case C. -/
theorem sout_C_2 (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) (xs0 : Vec F S128x2048 .f32) (xs1 : Vec F S128x2048 .f32) (xs2 : Vec F S128x2048 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2 = upd2 i x0 x1 x2 x8 x9 x10 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2)]
  unfold kernelRun0_C
  dsimp only
  sl_unfold_run_names
  rw [View.canon_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

/-- The output block a run of the last step stores: the epilogue of the three sums it has just updated. -/
theorem out_C (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x2048 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x2048 .f32) (harg17 : arg17.IsWhole) (arg18 : Memref sig .tc .vmem S128x2048 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x2048 .f32) (harg21 : arg21.IsWhole) (hc0 : ¬cond0_0 i) (hc1 : cond0_1 i)
    (x0 : Vec F S128x256 .f32) (x1 : Vec F S128x256 .f32) (x2 : Vec F S128x2048 .f32) (x3 : Vec F S256x2048 .bf16) (x4 : Vec F S256x2048 .bf16) (x5 : Vec F S256x2048 .bf16) (x6 : Vec F S256x2048 .bf16) (x7 : Vec F S256x2048 .bf16) (x8 : Vec F S256x2048 .bf16) (x9 : Vec F S256x2048 .bf16) (x10 : Vec F S256x2048 .bf16) (x11 : Vec F S2048x2048 .bf16) (x12 : Vec F S1x2048 .f32) (x13 : Vec F S1x2048 .f32) (x14 : Vec F S1x2048 .f32) (x15 : Vec F S1x2048 .f32) (xs0 : Vec F S128x2048 .f32) (xs1 : Vec F S128x2048 .f32) (xs2 : Vec F S128x2048 .f32) :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2
      = k0_pay3 (upd0 x0 x1 xs0 x6 x7) x12 (upd1 i x0 x1 x2 x3 x4 x5 xs1) x13 (upd2 i x0 x1 x2 x8 x9 x10 xs2) x14 x2 x11 x15 := by
  unfold out0_C_16
  rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 xs0 xs1 xs2)]
  unfold kernelRun0_C
  dsimp only
  sl_unfold_run_names
  rw [View.canon_unit_zero hz2]
  simp only [View.readCov_unit_zero (S := S128x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread, harg21.read_unread,
    View.ld_unit_zero (S := S128x256) hz2, View.ld_unit_zero (S := S128x2048) hz2, View.ld_unit_zero (S := S256x2048) hz2,
    View.ld_unit_zero (S := S2048x2048) hz2, View.ld_unit_zero (S := S1x2048) hz2]
  all_goals rfl

end Cert.KernelIdeal.Pieces

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Addends.lean ====
/-
  The body's arithmetic read at one entry, on the extended reals.

  At one step of the contraction axis the body adds to each of its three running sums the products of that step's
  256 columns of the activations with the step's 256 rows of the transposed weights: two products for the block
  input, three for each gate. At the last step it adds the biases, applies the logistic function, multiplies the
  read gate into the memory, multiplies that by the decoder's transposed weight over all 2048 columns, adds the
  decoder's bias and the product of the other two gates. A change of float format is the identity here, and a
  product into a zero accumulator is the plain sum of products.
-/
import proofs.«132862_j54262616818001_2_alg».proof.Proof.Gen.KernelIdeal.Skeleton
import proofs.«132862_j54262616818001_2_alg».proof.Proof.LibPlainDot
import proofs.«132862_j54262616818001_2_alg».proof.Proof.LibRowBroadcasts
import Idealize.ShloMosaic.Lib.Pipeline.Value
import Idealize.ShloMosaic.Lib.ValueIdx
import Idealize.ShloMosaic.PureOps.Ideal.Laws

noncomputable section

namespace Cert.KernelIdeal.Addends

open Cert.KernelIdeal Cert.KernelIdeal.Gen Idealize.ShloMosaic Idealize.ShloMosaic.ValueIdx
open scoped BigOperators

/-- A 128 x 256 by 256 x 2048 product into zero, at (p, q). -/
theorem mm (l : FVec Ideal S128x256 .bf16) (r : FVec Ideal S256x2048 .bf16) (p : Fin 128) (q : Fin 2048) :
    matmul (F := Ideal) dot_S128x256_S256x2048_S128x2048_1_0_0_1_n_n none l r
        (constant (F := Ideal) S128x2048 .f32 0x00000000#32) (ix2 p q)
      = ∑ k : Fin 256, l (ix2 p k) * r (ix2 k q) :=
  Cert.Lib.PlainDot.matmul_zero_apply Facts₀.dot_S128x256_S256x2048_S128x2048_1_0_0_1_n_n_wf none l r p q

/-- The decoder's 128 x 2048 by 2048 x 2048 product into zero, at (p, q). -/
theorem mmDec (l : FVec Ideal S128x2048 .bf16) (r : FVec Ideal S2048x2048 .bf16) (p : Fin 128) (q : Fin 2048) :
    matmul (F := Ideal) dot_S128x2048_S2048x2048_S128x2048_1_0_0_1_n_n none l r
        (constant (F := Ideal) S128x2048 .f32 0x00000000#32) (ix2 p q)
      = ∑ k : Fin 2048, l (ix2 p k) * r (ix2 k q) :=
  Cert.Lib.PlainDot.matmul_zero_apply Facts₀.dot_S128x2048_S2048x2048_S128x2048_1_0_0_1_n_n_wf none l r p q

/-- A bias row broadcast down the 128 rows, at (p, q). -/
theorem bias (b : FVec Ideal S1x2048 .f32) (p : Fin 128) (q : Fin 2048) :
    broadcastTo S128x2048 b broadcasts_S1x2048_S128x2048 (ix2 p q) = b (ix2 (0 : Fin 1) q) :=
  Cert.Lib.Rows.bcastRow_apply b broadcasts_S1x2048_S128x2048 p q

/-- The block input's running sum after a step: what it held plus the step's two products. -/
theorem pay10_apply (x0 x1 : FVec Ideal S128x256 .f32) (acc : FVec Ideal S128x2048 .f32)
    (w6 w7 : FVec Ideal S256x2048 .bf16) (p : Fin 128) (q : Fin 2048) :
    k0_pay10 (F := Ideal) x0 x1 acc w6 w7 (ix2 p q)
      = acc (ix2 p q) + ((∑ k : Fin 256, x0 (ix2 p k) * w6 (ix2 k q)) + ∑ k : Fin 256, x1 (ix2 p k) * w7 (ix2 k q)) := by
  unfold k0_pay10 k0_pay7 k0_pay8
  simp only [shapeCast_self]
  exact congrArg₂ (· + ·) rfl (congrArg₂ (· + ·) (mm _ _ p q) (mm _ _ p q))

/-- The first product of the input gate's step. -/
theorem pay11_apply (x0 : FVec Ideal S128x256 .f32) (w3 : FVec Ideal S256x2048 .bf16) (p : Fin 128) (q : Fin 2048) :
    k0_pay11 (F := Ideal) x0 w3 (ix2 p q) = ∑ k : Fin 256, x0 (ix2 p k) * w3 (ix2 k q) := by
  unfold k0_pay11 k0_pay7
  simp only [shapeCast_self]
  exact mm _ _ p q

/-- The input gate's running sum after a step: what it held plus the step's three products. -/
theorem pay1_apply (v8 v11 : FVec Ideal S128x256 .bf16) (acc v27 : FVec Ideal S128x2048 .f32)
    (v29 w4 : FVec Ideal S256x2048 .bf16) (p : Fin 128) (q : Fin 2048) :
    k0_pay1 (F := Ideal) v8 v11 acc v27 v29 (constant (F := Ideal) S128x2048 .f32 0x00000000#32) w4 (ix2 p q)
      = acc (ix2 p q) + ((v27 (ix2 p q) + ∑ k : Fin 256, v11 (ix2 p k) * v29 (ix2 k q))
          + ∑ k : Fin 256, v8 (ix2 p k) * w4 (ix2 k q)) := by
  unfold k0_pay1
  simp only [shapeCast_self]
  exact congrArg₂ (· + ·) rfl (congrArg₂ (· + ·) (congrArg₂ (· + ·) rfl (mm _ _ p q)) (mm _ _ p q))

/-- The read gate's running sum after a step: what it held plus the step's three products. -/
theorem pay2_apply (v6 v8 v11 : FVec Ideal S128x256 .bf16) (acc : FVec Ideal S128x2048 .f32)
    (w8 w10 w9 : FVec Ideal S256x2048 .bf16) (p : Fin 128) (q : Fin 2048) :
    k0_pay2 (F := Ideal) v6 v8 v11 acc w8 w10 w9 (ix2 p q)
      = acc (ix2 p q) + (((∑ k : Fin 256, v6 (ix2 p k) * w8 (ix2 k q)) + ∑ k : Fin 256, v11 (ix2 p k) * w10 (ix2 k q))
          + ∑ k : Fin 256, v8 (ix2 p k) * w9 (ix2 k q)) := by
  unfold k0_pay2
  simp only [shapeCast_self]
  exact congrArg₂ (· + ·) rfl (congrArg₂ (· + ·) (congrArg₂ (· + ·) (mm _ _ p q) (mm _ _ p q)) (mm _ _ p q))

/-- The last step's result: the decoder applied to the read gate times the memory, plus its bias, plus the product of
    the block input and the input gate, each gate the logistic function of its running sum plus its bias. -/
theorem pay3_apply (a0 : FVec Ideal S128x2048 .f32) (b12 : FVec Ideal S1x2048 .f32) (a1 : FVec Ideal S128x2048 .f32)
    (b13 : FVec Ideal S1x2048 .f32) (a2 : FVec Ideal S128x2048 .f32) (b14 : FVec Ideal S1x2048 .f32)
    (mem : FVec Ideal S128x2048 .f32) (wd : FVec Ideal S2048x2048 .bf16) (b15 : FVec Ideal S1x2048 .f32)
    (p : Fin 128) (q : Fin 2048) :
    k0_pay3 (F := Ideal) a0 b12 a1 b13 a2 b14 mem wd b15 (ix2 p q)
      = ((∑ k : Fin 2048, (Ideal.logistic (a2 (ix2 p k) + b14 (ix2 (0 : Fin 1) k)) * mem (ix2 p k)) * wd (ix2 k q))
            + b15 (ix2 (0 : Fin 1) q))
          + Ideal.logistic (a0 (ix2 p q) + b12 (ix2 (0 : Fin 1) q))
            * Ideal.logistic (a1 (ix2 p q) + b13 (ix2 (0 : Fin 1) q)) := by
  unfold k0_pay3
  simp only [shapeCast_self]
  refine congrArg₂ (· + ·) (congrArg₂ (· + ·) ((mmDec _ _ p q).trans ?_) (bias b15 p q)) ?_
  · exact Finset.sum_congr rfl fun k _ =>
      congrArg₂ (· * ·) (congrArg₂ (· * ·) (congrArg Ideal.logistic (congrArg₂ (· + ·) rfl (bias b14 p k))) rfl) rfl
  · exact congrArg₂ (· * ·) (congrArg Ideal.logistic (congrArg₂ (· + ·) rfl (bias b12 p q)))
      (congrArg Ideal.logistic (congrArg₂ (· + ·) rfl (bias b13 p q)))

/-- The first step's fill of the block input's running sum is zero. -/
theorem zero4 (p : Fin 128) (q : Fin 2048) : k0_pay4 (F := Ideal) (ix2 p q) = 0 := by
  unfold k0_pay4
  simp only [shapeCast_self]
  exact Ideal.ofBits_zero_f32

/-- The first step's fill of the input gate's running sum is zero. -/
theorem zero5 (p : Fin 128) (q : Fin 2048) : k0_pay5 (F := Ideal) (ix2 p q) = 0 := by
  unfold k0_pay5
  simp only [shapeCast_self]
  exact Ideal.ofBits_zero_f32

/-- The first step's fill of the read gate's running sum is zero. -/
theorem zero6 (p : Fin 128) (q : Fin 2048) : k0_pay6 (F := Ideal) (ix2 p q) = 0 := by
  unfold k0_pay6
  simp only [shapeCast_self]
  exact Ideal.ofBits_zero_f32

/-- A staged weight block taken as it is. -/
theorem pay12_eq (w : FVec Ideal S256x2048 .bf16) : k0_pay12 (F := Ideal) w = w := by
  unfold k0_pay12
  exact shapeCast_self _ _

/-- The input gate's step from the loaded blocks: x, the memory's slice and out0 against their three weights. -/
theorem step1_apply (x0 x1 mem : FVec Ideal S128x256 .f32) (x3 x4 x5 : FVec Ideal S256x2048 .bf16)
    (acc : FVec Ideal S128x2048 .f32) (p : Fin 128) (q : Fin 2048) :
    k0_pay1 (F := Ideal) (k0_pay8 x1) (k0_pay9 mem) acc (k0_pay11 x0 x3) (k0_pay12 x5)
        (constant (F := Ideal) S128x2048 .f32 0x00000000#32) x4 (ix2 p q)
      = acc (ix2 p q) + (((∑ k : Fin 256, x0 (ix2 p k) * x3 (ix2 k q)) + ∑ k : Fin 256, mem (ix2 p k) * x5 (ix2 k q))
          + ∑ k : Fin 256, x1 (ix2 p k) * x4 (ix2 k q)) := by
  refine (pay1_apply (k0_pay8 x1) (k0_pay9 mem) acc (k0_pay11 x0 x3) (k0_pay12 x5) x4 p q).trans ?_
  rw [pay11_apply, pay12_eq]
  rfl

/-- The read gate's step from the loaded blocks. -/
theorem step2_apply (x0 x1 mem : FVec Ideal S128x256 .f32) (x8 x9 x10 : FVec Ideal S256x2048 .bf16)
    (acc : FVec Ideal S128x2048 .f32) (p : Fin 128) (q : Fin 2048) :
    k0_pay2 (F := Ideal) (k0_pay7 x0) (k0_pay8 x1) (k0_pay9 mem) acc x8 x10 x9 (ix2 p q)
      = acc (ix2 p q) + (((∑ k : Fin 256, x0 (ix2 p k) * x8 (ix2 k q)) + ∑ k : Fin 256, mem (ix2 p k) * x10 (ix2 k q))
          + ∑ k : Fin 256, x1 (ix2 p k) * x9 (ix2 k q)) :=
  pay2_apply (k0_pay7 x0) (k0_pay8 x1) (k0_pay9 mem) acc x8 x10 x9 p q

end Cert.KernelIdeal.Addends

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.Blocks.lean ====
/-
  What the kernel's windows hold.

  Before the region the host transposes each weight and narrows it to bfloat16, which on the extended reals changes
  nothing: the array the region finds at (k, q) is the weight at (q, k). It adds the biases of a gate's layers and
  views the sum as a row. A window's block at grid point t = 8 * r + s (row tile r, contraction step s) is a
  rectangle of its array: rows 128 r .. 128 r + 127 of the activations, columns 256 s .. 256 s + 255 of x and out0
  (all 2048 columns of the memory), rows 256 s .. 256 s + 255 of a transposed gate weight, the whole decoder weight
  and the whole bias rows.
-/
import proofs.«132862_j54262616818001_2_alg».proof.Proof.Gen.KernelIdeal.Frame
import proofs.«132862_j54262616818001_2_alg».proof.Proof.LibMergeRows
import proofs.«132862_j54262616818001_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays the host wrote -/

/-- The transposed weight of window 3, as the region finds it. -/
theorem V_main_v1 (c : Dev nD) :
    (V m c main_v1 : S2048x2048.Idx → EReal)
      = (truncf (F := Ideal) .bf16 (transpose S2048x2048 [1, 0] (m ((c : Thread nD τ).loc main_arg3) : S2048x2048.Idx → EReal)
          transposes_S2048x2048_S2048x2048_1_0) bitsLt_bf16_f32 : S2048x2048.Idx → EReal) := by
  dsimp only [Gen.V, Gen.hostOps0]; after_results
  all_goals rfl

theorem V_main_v1_apply (c : Dev nD) (k q : Fin 2048) :
    V m c main_v1 (ix2 k q) = m ((c : Thread nD τ).loc main_arg3) (ix2 q k) := by
  rw [V_main_v1]
  exact Cert.Lib.MergeRows.transpose_apply _ transposes_S2048x2048_S2048x2048_1_0 k q

/-- The transposed weight of window 4, as the region finds it. -/
theorem V_main_v3 (c : Dev nD) :
    (V m c main_v3 : S2048x2048.Idx → EReal)
      = (truncf (F := Ideal) .bf16 (transpose S2048x2048 [1, 0] (m ((c : Thread nD τ).loc main_arg5) : S2048x2048.Idx → EReal)
          transposes_S2048x2048_S2048x2048_1_0) bitsLt_bf16_f32 : S2048x2048.Idx → EReal) := by
  dsimp only [Gen.V, Gen.hostOps0]; after_results
  all_goals rfl

theorem V_main_v3_apply (c : Dev nD) (k q : Fin 2048) :
    V m c main_v3 (ix2 k q) = m ((c : Thread nD τ).loc main_arg5) (ix2 q k) := by
  rw [V_main_v3]
  exact Cert.Lib.MergeRows.transpose_apply _ transposes_S2048x2048_S2048x2048_1_0 k q

/-- The transposed weight of window 5, as the region finds it. -/
theorem V_main_v5 (c : Dev nD) :
    (V m c main_v5 : S2048x2048.Idx → EReal)
      = (truncf (F := Ideal) .bf16 (transpose S2048x2048 [1, 0] (m ((c : Thread nD τ).loc main_arg7) : S2048x2048.Idx → EReal)
          transposes_S2048x2048_S2048x2048_1_0) bitsLt_bf16_f32 : S2048x2048.Idx → EReal) := by
  dsimp only [Gen.V, Gen.hostOps0]; after_results
  all_goals rfl

theorem V_main_v5_apply (c : Dev nD) (k q : Fin 2048) :
    V m c main_v5 (ix2 k q) = m ((c : Thread nD τ).loc main_arg7) (ix2 q k) := by
  rw [V_main_v5]
  exact Cert.Lib.MergeRows.transpose_apply _ transposes_S2048x2048_S2048x2048_1_0 k q

/-- The transposed weight of window 6, as the region finds it. -/
theorem V_main_v7 (c : Dev nD) :
    (V m c main_v7 : S2048x2048.Idx → EReal)
      = (truncf (F := Ideal) .bf16 (transpose S2048x2048 [1, 0] (m ((c : Thread nD τ).loc main_arg9) : S2048x2048.Idx → EReal)
          transposes_S2048x2048_S2048x2048_1_0) bitsLt_bf16_f32 : S2048x2048.Idx → EReal) := by
  dsimp only [Gen.V, Gen.hostOps0]; after_results
  all_goals rfl

theorem V_main_v7_apply (c : Dev nD) (k q : Fin 2048) :
    V m c main_v7 (ix2 k q) = m ((c : Thread nD τ).loc main_arg9) (ix2 q k) := by
  rw [V_main_v7]
  exact Cert.Lib.MergeRows.transpose_apply _ transposes_S2048x2048_S2048x2048_1_0 k q

/-- The transposed weight of window 7, as the region finds it. -/
theorem V_main_v9 (c : Dev nD) :
    (V m c main_v9 : S2048x2048.Idx → EReal)
      = (truncf (F := Ideal) .bf16 (transpose S2048x2048 [1, 0] (m ((c : Thread nD τ).loc main_arg11) : S2048x2048.Idx → EReal)
          transposes_S2048x2048_S2048x2048_1_0) bitsLt_bf16_f32 : S2048x2048.Idx → EReal) := by
  dsimp only [Gen.V, Gen.hostOps0]; after_results
  all_goals rfl

theorem V_main_v9_apply (c : Dev nD) (k q : Fin 2048) :
    V m c main_v9 (ix2 k q) = m ((c : Thread nD τ).loc main_arg11) (ix2 q k) := by
  rw [V_main_v9]
  exact Cert.Lib.MergeRows.transpose_apply _ transposes_S2048x2048_S2048x2048_1_0 k q

/-- The transposed weight of window 8, as the region finds it. -/
theorem V_main_v11 (c : Dev nD) :
    (V m c main_v11 : S2048x2048.Idx → EReal)
      = (truncf (F := Ideal) .bf16 (transpose S2048x2048 [1, 0] (m ((c : Thread nD τ).loc main_arg13) : S2048x2048.Idx → EReal)
          transposes_S2048x2048_S2048x2048_1_0) bitsLt_bf16_f32 : S2048x2048.Idx → EReal) := by
  dsimp only [Gen.V, Gen.hostOps0]; after_results
  all_goals rfl

theorem V_main_v11_apply (c : Dev nD) (k q : Fin 2048) :
    V m c main_v11 (ix2 k q) = m ((c : Thread nD τ).loc main_arg13) (ix2 q k) := by
  rw [V_main_v11]
  exact Cert.Lib.MergeRows.transpose_apply _ transposes_S2048x2048_S2048x2048_1_0 k q

/-- The transposed weight of window 9, as the region finds it. -/
theorem V_main_v13 (c : Dev nD) :
    (V m c main_v13 : S2048x2048.Idx → EReal)
      = (truncf (F := Ideal) .bf16 (transpose S2048x2048 [1, 0] (m ((c : Thread nD τ).loc main_arg15) : S2048x2048.Idx → EReal)
          transposes_S2048x2048_S2048x2048_1_0) bitsLt_bf16_f32 : S2048x2048.Idx → EReal) := by
  dsimp only [Gen.V, Gen.hostOps0]; after_results
  all_goals rfl

theorem V_main_v13_apply (c : Dev nD) (k q : Fin 2048) :
    V m c main_v13 (ix2 k q) = m ((c : Thread nD τ).loc main_arg15) (ix2 q k) := by
  rw [V_main_v13]
  exact Cert.Lib.MergeRows.transpose_apply _ transposes_S2048x2048_S2048x2048_1_0 k q

/-- The transposed weight of window 10, as the region finds it. -/
theorem V_main_v15 (c : Dev nD) :
    (V m c main_v15 : S2048x2048.Idx → EReal)
      = (truncf (F := Ideal) .bf16 (transpose S2048x2048 [1, 0] (m ((c : Thread nD τ).loc main_arg17) : S2048x2048.Idx → EReal)
          transposes_S2048x2048_S2048x2048_1_0) bitsLt_bf16_f32 : S2048x2048.Idx → EReal) := by
  dsimp only [Gen.V, Gen.hostOps0]; after_results
  all_goals rfl

theorem V_main_v15_apply (c : Dev nD) (k q : Fin 2048) :
    V m c main_v15 (ix2 k q) = m ((c : Thread nD τ).loc main_arg17) (ix2 q k) := by
  rw [V_main_v15]
  exact Cert.Lib.MergeRows.transpose_apply _ transposes_S2048x2048_S2048x2048_1_0 k q

/-- The transposed weight of window 11, as the region finds it. -/
theorem V_main_v17 (c : Dev nD) :
    (V m c main_v17 : S2048x2048.Idx → EReal)
      = (truncf (F := Ideal) .bf16 (transpose S2048x2048 [1, 0] (m ((c : Thread nD τ).loc main_arg19) : S2048x2048.Idx → EReal)
          transposes_S2048x2048_S2048x2048_1_0) bitsLt_bf16_f32 : S2048x2048.Idx → EReal) := by
  dsimp only [Gen.V, Gen.hostOps0]; after_results
  all_goals rfl

theorem V_main_v17_apply (c : Dev nD) (k q : Fin 2048) :
    V m c main_v17 (ix2 k q) = m ((c : Thread nD τ).loc main_arg19) (ix2 q k) := by
  rw [V_main_v17]
  exact Cert.Lib.MergeRows.transpose_apply _ transposes_S2048x2048_S2048x2048_1_0 k q

set_option maxHeartbeats 4000000 in
/-- The bias row of window 12, as the region finds it. -/
theorem V_main_v19 (c : Dev nD) :
    (V m c main_v19 : S1x2048.Idx → EReal) = (shapeCast S1x2048 (addf (F := Ideal) (s := S2048) (φ := .f32) (m ((c : Thread nD τ).loc main_arg10) : S2048.Idx → EReal) (m ((c : Thread nD τ).loc main_arg12) : S2048.Idx → EReal)) shapeCasts_S2048_S1x2048 : S1x2048.Idx → EReal) := by
  dsimp only [Gen.V, Gen.hostOps0]; after_results
  all_goals rfl

theorem V_main_v19_apply (c : Dev nD) (q : Fin 2048) :
    V m c main_v19 (ix2 (0 : Fin 1) q) = Cert.Spec.bias2 (m ((c : Thread nD τ).loc main_arg10)) (m ((c : Thread nD τ).loc main_arg12)) q := by
  rw [V_main_v19]
  exact Cert.Lib.MergeRows.row_apply _ shapeCasts_S2048_S1x2048 q

set_option maxHeartbeats 4000000 in
/-- The bias row of window 13, as the region finds it. -/
theorem V_main_v22 (c : Dev nD) :
    (V m c main_v22 : S1x2048.Idx → EReal) = (shapeCast S1x2048 (addf (F := Ideal) (s := S2048) (φ := .f32) (addf (F := Ideal) (s := S2048) (φ := .f32) (m ((c : Thread nD τ).loc main_arg4) : S2048.Idx → EReal) (m ((c : Thread nD τ).loc main_arg8) : S2048.Idx → EReal)) (m ((c : Thread nD τ).loc main_arg6) : S2048.Idx → EReal)) shapeCasts_S2048_S1x2048 : S1x2048.Idx → EReal) := by
  dsimp only [Gen.V, Gen.hostOps0]; after_results
  all_goals rfl

theorem V_main_v22_apply (c : Dev nD) (q : Fin 2048) :
    V m c main_v22 (ix2 (0 : Fin 1) q) = Cert.Spec.bias3 (m ((c : Thread nD τ).loc main_arg4)) (m ((c : Thread nD τ).loc main_arg8)) (m ((c : Thread nD τ).loc main_arg6)) q := by
  rw [V_main_v22]
  exact Cert.Lib.MergeRows.row_apply _ shapeCasts_S2048_S1x2048 q

set_option maxHeartbeats 4000000 in
/-- The bias row of window 14, as the region finds it. -/
theorem V_main_v25 (c : Dev nD) :
    (V m c main_v25 : S1x2048.Idx → EReal) = (shapeCast S1x2048 (addf (F := Ideal) (s := S2048) (φ := .f32) (addf (F := Ideal) (s := S2048) (φ := .f32) (m ((c : Thread nD τ).loc main_arg14) : S2048.Idx → EReal) (m ((c : Thread nD τ).loc main_arg18) : S2048.Idx → EReal)) (m ((c : Thread nD τ).loc main_arg16) : S2048.Idx → EReal)) shapeCasts_S2048_S1x2048 : S1x2048.Idx → EReal) := by
  dsimp only [Gen.V, Gen.hostOps0]; after_results
  all_goals rfl

theorem V_main_v25_apply (c : Dev nD) (q : Fin 2048) :
    V m c main_v25 (ix2 (0 : Fin 1) q) = Cert.Spec.bias3 (m ((c : Thread nD τ).loc main_arg14)) (m ((c : Thread nD τ).loc main_arg18)) (m ((c : Thread nD τ).loc main_arg16)) q := by
  rw [V_main_v25]
  exact Cert.Lib.MergeRows.row_apply _ shapeCasts_S2048_S1x2048 q

set_option maxHeartbeats 4000000 in
/-- The bias row of window 15, as the region finds it. -/
theorem V_main_v26 (c : Dev nD) :
    (V m c main_v26 : S1x2048.Idx → EReal) = (shapeCast S1x2048 ((m ((c : Thread nD τ).loc main_arg20) : S2048.Idx → EReal)) shapeCasts_S2048_S1x2048 : S1x2048.Idx → EReal) := by
  dsimp only [Gen.V, Gen.hostOps0]; after_results
  all_goals rfl

theorem V_main_v26_apply (c : Dev nD) (q : Fin 2048) :
    V m c main_v26 (ix2 (0 : Fin 1) q) = Cert.Spec.bias1 (m ((c : Thread nD τ).loc main_arg20)) q := by
  rw [V_main_v26]
  exact Cert.Lib.MergeRows.row_apply _ shapeCasts_S2048_S1x2048 q

/-! ## Where each window's block sits at a grid point -/

theorem idx0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx1 : ∀ t : Fin cfg0.N, win0_1.index t (0 : Fin 2) = t.val / 8 ∧ win0_1.index t (1 : Fin 2) = t.val % 8 :=
  (by decide +kernel : ∀ t : Fin grid0.N, win0_1.index t (0 : Fin 2) = t.val / 8 ∧ win0_1.index t (1 : Fin 2) = t.val % 8)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)
theorem idx4 : ∀ t : Fin cfg0.N, win0_4.index t (0 : Fin 2) = t.val % 8 ∧ win0_4.index t (1 : Fin 2) = 0 :=
  (by decide +kernel : ∀ t : Fin grid0.N, win0_4.index t (0 : Fin 2) = t.val % 8 ∧ win0_4.index t (1 : Fin 2) = 0)
theorem idx5 : ∀ t : Fin cfg0.N, win0_5.index t (0 : Fin 2) = t.val % 8 ∧ win0_5.index t (1 : Fin 2) = 0 :=
  (by decide +kernel : ∀ t : Fin grid0.N, win0_5.index t (0 : Fin 2) = t.val % 8 ∧ win0_5.index t (1 : Fin 2) = 0)
theorem idx6 : ∀ t : Fin cfg0.N, win0_6.index t (0 : Fin 2) = t.val % 8 ∧ win0_6.index t (1 : Fin 2) = 0 :=
  (by decide +kernel : ∀ t : Fin grid0.N, win0_6.index t (0 : Fin 2) = t.val % 8 ∧ win0_6.index t (1 : Fin 2) = 0)
theorem idx7 : ∀ t : Fin cfg0.N, win0_7.index t (0 : Fin 2) = t.val % 8 ∧ win0_7.index t (1 : Fin 2) = 0 :=
  (by decide +kernel : ∀ t : Fin grid0.N, win0_7.index t (0 : Fin 2) = t.val % 8 ∧ win0_7.index t (1 : Fin 2) = 0)
theorem idx8 : ∀ t : Fin cfg0.N, win0_8.index t (0 : Fin 2) = t.val % 8 ∧ win0_8.index t (1 : Fin 2) = 0 :=
  (by decide +kernel : ∀ t : Fin grid0.N, win0_8.index t (0 : Fin 2) = t.val % 8 ∧ win0_8.index t (1 : Fin 2) = 0)
theorem idx9 : ∀ t : Fin cfg0.N, win0_9.index t (0 : Fin 2) = t.val % 8 ∧ win0_9.index t (1 : Fin 2) = 0 :=
  (by decide +kernel : ∀ t : Fin grid0.N, win0_9.index t (0 : Fin 2) = t.val % 8 ∧ win0_9.index t (1 : Fin 2) = 0)
theorem idx10 : ∀ t : Fin cfg0.N, win0_10.index t (0 : Fin 2) = t.val % 8 ∧ win0_10.index t (1 : Fin 2) = 0 :=
  (by decide +kernel : ∀ t : Fin grid0.N, win0_10.index t (0 : Fin 2) = t.val % 8 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem idx16 : ∀ t : Fin cfg0.N, win0_16.index t (0 : Fin 2) = t.val / 8 ∧ win0_16.index t (1 : Fin 2) = 0 :=
  (by decide +kernel : ∀ t : Fin grid0.N, win0_16.index t (0 : Fin 2) = t.val / 8 ∧ win0_16.index t (1 : Fin 2) = 0)

/-! ## The input blocks read at an entry -/

/-- Rows 128 r .., columns 256 s .. of window 0's activations. -/
theorem iblk0_apply (c : Dev nD) (t : Fin cfg0.N) (p : Fin 128) (j : Fin 256) (P : Fin 4096) (K : Fin 2048)
    (hP : P.val = 128 * (t.val / 8) + p.val) (hK : K.val = 256 * (t.val % 8) + j.val) :
    (iblk m c 0 t : S128x256.Idx → EReal) (ix2 p j) = m ((c : Thread nD τ).loc main_arg0) (ix2 P K) := by
  unfold iblk
  rw [View.read_apply]
  show V m c main_arg0 _ = _
  rw [V_main_arg0]
  refine congrArg _ (funext fun a => Fin.ext ?_)
  match a with
  | ⟨0, _⟩ => show win0_0.index t 0 * 128 + 1 * p.val = P.val; rw [(idx0 t).1, hP]; omega
  | ⟨1, _⟩ => show win0_0.index t 1 * 256 + 1 * j.val = K.val; rw [(idx0 t).2, hK]; omega

/-- Rows 128 r .., columns 256 s .. of window 1's activations. -/
theorem iblk1_apply (c : Dev nD) (t : Fin cfg0.N) (p : Fin 128) (j : Fin 256) (P : Fin 4096) (K : Fin 2048)
    (hP : P.val = 128 * (t.val / 8) + p.val) (hK : K.val = 256 * (t.val % 8) + j.val) :
    (iblk m c 1 t : S128x256.Idx → EReal) (ix2 p j) = m ((c : Thread nD τ).loc main_arg1) (ix2 P K) := by
  unfold iblk
  rw [View.read_apply]
  show V m c main_arg1 _ = _
  rw [V_main_arg1]
  refine congrArg _ (funext fun a => Fin.ext ?_)
  match a with
  | ⟨0, _⟩ => show win0_1.index t 0 * 128 + 1 * p.val = P.val; rw [(idx1 t).1, hP]; omega
  | ⟨1, _⟩ => show win0_1.index t 1 * 256 + 1 * j.val = K.val; rw [(idx1 t).2, hK]; omega

/-- Rows 128 r .. of the memory, all columns. -/
theorem iblk2_apply (c : Dev nD) (t : Fin cfg0.N) (p : Fin 128) (k : Fin 2048) (P : Fin 4096)
    (hP : P.val = 128 * (t.val / 8) + p.val) :
    (iblk m c 2 t : S128x2048.Idx → EReal) (ix2 p k) = m ((c : Thread nD τ).loc main_arg2) (ix2 P k) := by
  unfold iblk
  rw [View.read_apply]
  show V m c main_arg2 _ = _
  rw [V_main_arg2]
  refine congrArg _ (funext fun a => Fin.ext ?_)
  match a with
  | ⟨0, _⟩ => show win0_2.index t 0 * 128 + 1 * p.val = P.val; rw [(idx2 t).1, hP]; omega
  | ⟨1, _⟩ => show win0_2.index t 1 * 2048 + 1 * k.val = k.val; rw [(idx2 t).2]; omega

/-- Rows 256 s .. of window 3's transposed weight: the weight's columns 256 s .. . -/
theorem iblk3_apply (c : Dev nD) (t : Fin cfg0.N) (j : Fin 256) (q : Fin 2048) (K : Fin 2048)
    (hK : K.val = 256 * (t.val % 8) + j.val) :
    (iblk m c 3 t : S256x2048.Idx → EReal) (ix2 j q) = m ((c : Thread nD τ).loc main_arg3) (ix2 q K) := by
  rw [← V_main_v1_apply m c K q]
  unfold iblk
  rw [View.read_apply]
  show V m c main_v1 _ = _
  refine congrArg _ (funext fun a => Fin.ext ?_)
  match a with
  | ⟨0, _⟩ => show win0_3.index t 0 * 256 + 1 * j.val = K.val; rw [(idx3 t).1, hK]; omega
  | ⟨1, _⟩ => show win0_3.index t 1 * 2048 + 1 * q.val = q.val; rw [(idx3 t).2]; omega

/-- Rows 256 s .. of window 4's transposed weight: the weight's columns 256 s .. . -/
theorem iblk4_apply (c : Dev nD) (t : Fin cfg0.N) (j : Fin 256) (q : Fin 2048) (K : Fin 2048)
    (hK : K.val = 256 * (t.val % 8) + j.val) :
    (iblk m c 4 t : S256x2048.Idx → EReal) (ix2 j q) = m ((c : Thread nD τ).loc main_arg5) (ix2 q K) := by
  rw [← V_main_v3_apply m c K q]
  unfold iblk
  rw [View.read_apply]
  show V m c main_v3 _ = _
  refine congrArg _ (funext fun a => Fin.ext ?_)
  match a with
  | ⟨0, _⟩ => show win0_4.index t 0 * 256 + 1 * j.val = K.val; rw [(idx4 t).1, hK]; omega
  | ⟨1, _⟩ => show win0_4.index t 1 * 2048 + 1 * q.val = q.val; rw [(idx4 t).2]; omega

/-- Rows 256 s .. of window 5's transposed weight: the weight's columns 256 s .. . -/
theorem iblk5_apply (c : Dev nD) (t : Fin cfg0.N) (j : Fin 256) (q : Fin 2048) (K : Fin 2048)
    (hK : K.val = 256 * (t.val % 8) + j.val) :
    (iblk m c 5 t : S256x2048.Idx → EReal) (ix2 j q) = m ((c : Thread nD τ).loc main_arg7) (ix2 q K) := by
  rw [← V_main_v5_apply m c K q]
  unfold iblk
  rw [View.read_apply]
  show V m c main_v5 _ = _
  refine congrArg _ (funext fun a => Fin.ext ?_)
  match a with
  | ⟨0, _⟩ => show win0_5.index t 0 * 256 + 1 * j.val = K.val; rw [(idx5 t).1, hK]; omega
  | ⟨1, _⟩ => show win0_5.index t 1 * 2048 + 1 * q.val = q.val; rw [(idx5 t).2]; omega

/-- Rows 256 s .. of window 6's transposed weight: the weight's columns 256 s .. . -/
theorem iblk6_apply (c : Dev nD) (t : Fin cfg0.N) (j : Fin 256) (q : Fin 2048) (K : Fin 2048)
    (hK : K.val = 256 * (t.val % 8) + j.val) :
    (iblk m c 6 t : S256x2048.Idx → EReal) (ix2 j q) = m ((c : Thread nD τ).loc main_arg9) (ix2 q K) := by
  rw [← V_main_v7_apply m c K q]
  unfold iblk
  rw [View.read_apply]
  show V m c main_v7 _ = _
  refine congrArg _ (funext fun a => Fin.ext ?_)
  match a with
  | ⟨0, _⟩ => show win0_6.index t 0 * 256 + 1 * j.val = K.val; rw [(idx6 t).1, hK]; omega
  | ⟨1, _⟩ => show win0_6.index t 1 * 2048 + 1 * q.val = q.val; rw [(idx6 t).2]; omega

/-- Rows 256 s .. of window 7's transposed weight: the weight's columns 256 s .. . -/
theorem iblk7_apply (c : Dev nD) (t : Fin cfg0.N) (j : Fin 256) (q : Fin 2048) (K : Fin 2048)
    (hK : K.val = 256 * (t.val % 8) + j.val) :
    (iblk m c 7 t : S256x2048.Idx → EReal) (ix2 j q) = m ((c : Thread nD τ).loc main_arg11) (ix2 q K) := by
  rw [← V_main_v9_apply m c K q]
  unfold iblk
  rw [View.read_apply]
  show V m c main_v9 _ = _
  refine congrArg _ (funext fun a => Fin.ext ?_)
  match a with
  | ⟨0, _⟩ => show win0_7.index t 0 * 256 + 1 * j.val = K.val; rw [(idx7 t).1, hK]; omega
  | ⟨1, _⟩ => show win0_7.index t 1 * 2048 + 1 * q.val = q.val; rw [(idx7 t).2]; omega

/-- Rows 256 s .. of window 8's transposed weight: the weight's columns 256 s .. . -/
theorem iblk8_apply (c : Dev nD) (t : Fin cfg0.N) (j : Fin 256) (q : Fin 2048) (K : Fin 2048)
    (hK : K.val = 256 * (t.val % 8) + j.val) :
    (iblk m c 8 t : S256x2048.Idx → EReal) (ix2 j q) = m ((c : Thread nD τ).loc main_arg13) (ix2 q K) := by
  rw [← V_main_v11_apply m c K q]
  unfold iblk
  rw [View.read_apply]
  show V m c main_v11 _ = _
  refine congrArg _ (funext fun a => Fin.ext ?_)
  match a with
  | ⟨0, _⟩ => show win0_8.index t 0 * 256 + 1 * j.val = K.val; rw [(idx8 t).1, hK]; omega
  | ⟨1, _⟩ => show win0_8.index t 1 * 2048 + 1 * q.val = q.val; rw [(idx8 t).2]; omega

/-- Rows 256 s .. of window 9's transposed weight: the weight's columns 256 s .. . -/
theorem iblk9_apply (c : Dev nD) (t : Fin cfg0.N) (j : Fin 256) (q : Fin 2048) (K : Fin 2048)
    (hK : K.val = 256 * (t.val % 8) + j.val) :
    (iblk m c 9 t : S256x2048.Idx → EReal) (ix2 j q) = m ((c : Thread nD τ).loc main_arg15) (ix2 q K) := by
  rw [← V_main_v13_apply m c K q]
  unfold iblk
  rw [View.read_apply]
  show V m c main_v13 _ = _
  refine congrArg _ (funext fun a => Fin.ext ?_)
  match a with
  | ⟨0, _⟩ => show win0_9.index t 0 * 256 + 1 * j.val = K.val; rw [(idx9 t).1, hK]; omega
  | ⟨1, _⟩ => show win0_9.index t 1 * 2048 + 1 * q.val = q.val; rw [(idx9 t).2]; omega

/-- Rows 256 s .. of window 10's transposed weight: the weight's columns 256 s .. . -/
theorem iblk10_apply (c : Dev nD) (t : Fin cfg0.N) (j : Fin 256) (q : Fin 2048) (K : Fin 2048)
    (hK : K.val = 256 * (t.val % 8) + j.val) :
    (iblk m c 10 t : S256x2048.Idx → EReal) (ix2 j q) = m ((c : Thread nD τ).loc main_arg17) (ix2 q K) := by
  rw [← V_main_v15_apply m c K q]
  unfold iblk
  rw [View.read_apply]
  show V m c main_v15 _ = _
  refine congrArg _ (funext fun a => Fin.ext ?_)
  match a with
  | ⟨0, _⟩ => show win0_10.index t 0 * 256 + 1 * j.val = K.val; rw [(idx10 t).1, hK]; omega
  | ⟨1, _⟩ => show win0_10.index t 1 * 2048 + 1 * q.val = q.val; rw [(idx10 t).2]; omega

/-- The whole transposed decoder weight. -/
theorem iblk11_apply (c : Dev nD) (t : Fin cfg0.N) (k q : Fin 2048) :
    (iblk m c 11 t : S2048x2048.Idx → EReal) (ix2 k q) = m ((c : Thread nD τ).loc main_arg19) (ix2 q k) := by
  rw [← V_main_v17_apply m c k q]
  unfold iblk
  rw [View.read_apply]
  show V m c main_v17 _ = _
  refine congrArg _ (funext fun a => Fin.ext ?_)
  match a with
  | ⟨0, _⟩ => show win0_11.index t 0 * 2048 + 1 * k.val = k.val; rw [(idx11 t).1]; omega
  | ⟨1, _⟩ => show win0_11.index t 1 * 2048 + 1 * q.val = q.val; rw [(idx11 t).2]; omega

/-- The whole bias row of window 12. -/
theorem iblk12_apply (c : Dev nD) (t : Fin cfg0.N) (q : Fin 2048) :
    (iblk m c 12 t : S1x2048.Idx → EReal) (ix2 (0 : Fin 1) q) = Cert.Spec.bias2 (m ((c : Thread nD τ).loc main_arg10)) (m ((c : Thread nD τ).loc main_arg12)) q := by
  rw [← V_main_v19_apply m c q]
  unfold iblk
  rw [View.read_apply]
  show V m c main_v19 _ = _
  refine congrArg _ (funext fun a => Fin.ext ?_)
  match a with
  | ⟨0, _⟩ => show win0_12.index t 0 * 1 + 1 * 0 = 0; rw [(idx12 t).1]
  | ⟨1, _⟩ => show win0_12.index t 1 * 2048 + 1 * q.val = q.val; rw [(idx12 t).2]; omega

/-- The whole bias row of window 13. -/
theorem iblk13_apply (c : Dev nD) (t : Fin cfg0.N) (q : Fin 2048) :
    (iblk m c 13 t : S1x2048.Idx → EReal) (ix2 (0 : Fin 1) q) = Cert.Spec.bias3 (m ((c : Thread nD τ).loc main_arg4)) (m ((c : Thread nD τ).loc main_arg8)) (m ((c : Thread nD τ).loc main_arg6)) q := by
  rw [← V_main_v22_apply m c q]
  unfold iblk
  rw [View.read_apply]
  show V m c main_v22 _ = _
  refine congrArg _ (funext fun a => Fin.ext ?_)
  match a with
  | ⟨0, _⟩ => show win0_13.index t 0 * 1 + 1 * 0 = 0; rw [(idx13 t).1]
  | ⟨1, _⟩ => show win0_13.index t 1 * 2048 + 1 * q.val = q.val; rw [(idx13 t).2]; omega

/-- The whole bias row of window 14. -/
theorem iblk14_apply (c : Dev nD) (t : Fin cfg0.N) (q : Fin 2048) :
    (iblk m c 14 t : S1x2048.Idx → EReal) (ix2 (0 : Fin 1) q) = Cert.Spec.bias3 (m ((c : Thread nD τ).loc main_arg14)) (m ((c : Thread nD τ).loc main_arg18)) (m ((c : Thread nD τ).loc main_arg16)) q := by
  rw [← V_main_v25_apply m c q]
  unfold iblk
  rw [View.read_apply]
  show V m c main_v25 _ = _
  refine congrArg _ (funext fun a => Fin.ext ?_)
  match a with
  | ⟨0, _⟩ => show win0_14.index t 0 * 1 + 1 * 0 = 0; rw [(idx14 t).1]
  | ⟨1, _⟩ => show win0_14.index t 1 * 2048 + 1 * q.val = q.val; rw [(idx14 t).2]; omega

/-- The whole bias row of window 15. -/
theorem iblk15_apply (c : Dev nD) (t : Fin cfg0.N) (q : Fin 2048) :
    (iblk m c 15 t : S1x2048.Idx → EReal) (ix2 (0 : Fin 1) q) = Cert.Spec.bias1 (m ((c : Thread nD τ).loc main_arg20)) q := by
  rw [← V_main_v26_apply m c q]
  unfold iblk
  rw [View.read_apply]
  show V m c main_v26 _ = _
  refine congrArg _ (funext fun a => Fin.ext ?_)
  match a with
  | ⟨0, _⟩ => show win0_15.index t 0 * 1 + 1 * 0 = 0; rw [(idx15 t).1]
  | ⟨1, _⟩ => show win0_15.index t 1 * 2048 + 1 * q.val = q.val; rw [(idx15 t).2]; omega

end Cert.KernelIdeal.Blocks

end
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.Regroup.lean ====
/-
  Sums taken block by block, and biases added once at the end.

  A product whose contraction axis of length 2048 is cut into 8 blocks of 256, the blocks' partial products added
  one after the other onto zero, totals the whole product; and adding the sum of the layers' biases once is adding each
  bias to its own layer. Both use only that addition is associative and commutative, so they hold in any commutative
  additive monoid: on the extended reals no finiteness of the data is needed.
-/
import proofs.«132862_j54262616818001_2_alg».proof.Proof.LibBlockedSum

namespace Cert.Regroup

open scoped BigOperators

/-- A function on the first n naturals continued by zero. -/
def tot {M : Type*} [Zero M] (n : ℕ) (F : Fin n → M) : ℕ → M := fun k => if h : k < n then F ⟨k, h⟩ else 0

theorem tot_lt {M : Type*} [Zero M] {n : ℕ} (F : Fin n → M) {k : ℕ} (h : k < n) : tot n F k = F ⟨k, h⟩ := dif_pos h

theorem sum_tot {M : Type*} [AddCommMonoid M] {n : ℕ} (F : Fin n → M) : ∑ k : Fin n, tot n F k.val = ∑ k : Fin n, F k :=
  Finset.sum_congr rfl fun k _ => tot_lt F k.isLt

/-- Eight blocks of 256 exhaust 2048. -/
theorem blocks {M : Type*} [AddCommMonoid M] (f : ℕ → M) :
    ∑ s ∈ Finset.range 8, ∑ j : Fin 256, f (256 * s + j.val) = ∑ k : Fin 2048, f k.val :=
  Cert.Lib.BlockedSum.sum_fin_blocks f 8 256

/-- Two layers accumulated block by block from zero, their biases added together at the end. -/
theorem two_layers {M : Type*} [AddCommMonoid M] (f g : ℕ → M) (b1 b2 : M) :
    ((0 : M) + ∑ s ∈ Finset.range 8, ((∑ j : Fin 256, f (256 * s + j.val)) + ∑ j : Fin 256, g (256 * s + j.val)))
        + (b1 + b2)
      = ((∑ k : Fin 2048, f k.val) + b1) + ((∑ k : Fin 2048, g k.val) + b2) := by
  rw [zero_add, Finset.sum_add_distrib, blocks f, blocks g]
  exact add_add_add_comm _ _ _ _

/-- Three layers accumulated block by block from zero, their biases added together at the end. -/
theorem three_layers {M : Type*} [AddCommMonoid M] (f g h : ℕ → M) (b1 b2 b3 : M) :
    ((0 : M) + ∑ s ∈ Finset.range 8, (((∑ j : Fin 256, f (256 * s + j.val)) + ∑ j : Fin 256, g (256 * s + j.val))
          + ∑ j : Fin 256, h (256 * s + j.val)))
        + ((b1 + b2) + b3)
      = (((∑ k : Fin 2048, f k.val) + b1) + ((∑ k : Fin 2048, g k.val) + b2)) + ((∑ k : Fin 2048, h k.val) + b3) := by
  rw [zero_add, Finset.sum_add_distrib, Finset.sum_add_distrib, blocks f, blocks g, blocks h,
    add_add_add_comm (_ + _) _ (b1 + b2) b3, add_add_add_comm _ _ b1 b2]

end Cert.Regroup
-- ==== Proof.Fold.lean ====
/-
  The running sums at the last step of the contraction axis, as whole inner products.

  Row tile r of the activations is worked on at the eight consecutive grid points 8 r, ..., 8 r + 7, one per block of
  256 columns. The first of them stores zero plus its products into each running sum and every later one adds its
  own, so after the last the sum is zero plus the eight points' contributions. Point 8 r + s contributes, at (p, q),
  the products of row 128 r + p of the activations with row q of the weight over the columns 256 s, ..., 256 s + 255;
  the eight blocks exhaust the 2048 columns. Adding the combined bias row then gives the layers of the
  specification, each with its own bias: only the order and grouping of additions differ.
-/
import proofs.«132862_j54262616818001_2_alg».proof.Proof.Gen.KernelIdeal.Value
import proofs.«132862_j54262616818001_2_alg».proof.Proof.Pieces
import proofs.«132862_j54262616818001_2_alg».proof.Proof.Addends
import proofs.«132862_j54262616818001_2_alg».proof.Proof.Blocks
import proofs.«132862_j54262616818001_2_alg».proof.Proof.Regroup
import proofs.«132862_j54262616818001_2_alg».proof.Proof.Spec

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL.Sem
open scoped BigOperators

variable (m : (ℓ : Loc nD τ sig) → Buf (Elt Ideal) ℓ) (c : Dev nD)

/-- Row P of the activations times row q of a weight, entry by entry, continued by zero past the 2048 columns. -/
def prodT (A : Cert.Spec.Act) (W : Cert.Spec.Wt) (P : Fin 4096) (q : Fin 2048) : ℕ → EReal :=
  Cert.Regroup.tot 2048 fun k => A (ix2 P k) * W (ix2 q k)

theorem sum_prodT (A : Cert.Spec.Act) (W : Cert.Spec.Wt) (P : Fin 4096) (q : Fin 2048) :
    ∑ k : Fin 2048, prodT A W P q k.val = Cert.Spec.dotT A W P q :=
  Cert.Regroup.sum_tot _

/-- One block's partial product at (p, q): 256 columns of an activation block against 256 rows of a weight block. -/
def blockDot (x : FVec Ideal S128x256 .f32) (w : FVec Ideal S256x2048 .bf16) (p : Fin 128) (q : Fin 2048) : EReal :=
  ∑ k : Fin 256, x (ix2 p k) * w (ix2 k q)

/-- The contraction step of a grid point. -/
theorem coords1 : ∀ t : Fin cfg0.N, (grid0.coords t 1).val = t.val % 8 :=
  (by decide +kernel : ∀ t : Fin grid0.N, (grid0.coords t 1).val = t.val % 8)

/-- The step's 256 columns of the staged memory rows are the memory's columns 256 s .. of rows 128 r .. . -/
theorem memSlice_apply (t : Fin cfg0.N) (p : Fin 128) (j : Fin 256) (P : Fin 4096) (K : Fin 2048)
    (hP : P.val = 128 * (t.val / 8) + p.val) (hK : K.val = 256 * (t.val % 8) + j.val) :
    (Cert.KernelIdeal.Pieces.memSlice (grid0.coords t) (iblk m c 2 t) : FVec Ideal S128x256 .f32) (ix2 p j)
      = (m ((c : Thread nD τ).loc main_arg2)) (ix2 P K) := by
  rw [← Cert.KernelIdeal.Blocks.iblk2_apply m c t p K P hP]
  show (iblk m c 2 t : S128x2048.Idx → EReal) _ = _
  refine congrArg _ (funext fun a => Fin.ext ?_)
  match a with
  | ⟨0, _⟩ =>
    show k0_off1 (grid0.coords t) 0 + 1 * p.val = p.val
    rw [k0_off1_eq]; show 0 + 1 * p.val = p.val; omega
  | ⟨1, _⟩ =>
    show k0_off1 (grid0.coords t) 1 + 1 * j.val = K.val
    rw [k0_off1_eq]; show 256 * (grid0.coords t 1).val + 1 * j.val = K.val; rw [coords1 t, hK]; omega

/-! ## Running sum 0 -/

/-- What grid point n adds to running sum 0 at (p, q). -/
def add0 (n : ℕ) (p : Fin 128) (q : Fin 2048) : EReal :=
  if hb : n < cfg0.N then
    (blockDot (iblk m c 0 (⟨n, hb⟩ : Fin cfg0.N)) (iblk m c 6 (⟨n, hb⟩ : Fin cfg0.N)) p q + blockDot (iblk m c 1 (⟨n, hb⟩ : Fin cfg0.N)) (iblk m c 7 (⟨n, hb⟩ : Fin cfg0.N)) p q)
  else 0

/-- The first step of a row tile leaves zero plus its contribution. -/
theorem reset0 (n : ℕ) (hb : n < cfg0.N) (h0 : n % 8 = 0) (acc : Vec Ideal S128x2048 .f32) (p : Fin 128) (q : Fin 2048) :
    Value.scAt0_0 m c n hb acc (ix2 p q) = 0 + add0 m c n p q := by
  have h1 : ¬n % 8 = 7 := by omega
  unfold Value.scAt0_0
  rw [dif_pos h0, dif_neg h1]
  refine (congrFun (Cert.KernelIdeal.Pieces.sout_A_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N))) (ix2 p q)).trans ?_
  refine (Cert.KernelIdeal.Addends.pay10_apply (iblk m c 0 (⟨n, hb⟩ : Fin cfg0.N)) (iblk m c 1 (⟨n, hb⟩ : Fin cfg0.N)) (k0_pay4 (F := Ideal)) (iblk m c 6 (⟨n, hb⟩ : Fin cfg0.N)) (iblk m c 7 (⟨n, hb⟩ : Fin cfg0.N)) p q).trans ?_
  rw [Cert.KernelIdeal.Addends.zero4]
  unfold add0 blockDot
  rw [dif_pos hb]
  all_goals rfl

/-- Every later step adds its contribution to what the step before left. -/
theorem step0 (n : ℕ) (hb : n < cfg0.N) (h0 : ¬n % 8 = 0) (acc : Vec Ideal S128x2048 .f32) (p : Fin 128) (q : Fin 2048) :
    Value.scAt0_0 m c n hb acc (ix2 p q) = acc (ix2 p q) + add0 m c n p q := by
  unfold Value.scAt0_0
  by_cases h1 : n % 8 = 7
  · rw [dif_neg h0, dif_pos h1]
    refine (congrFun (Cert.KernelIdeal.Pieces.sout_C_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2) (ix2 p q)).trans ?_
    refine (Cert.KernelIdeal.Addends.pay10_apply (iblk m c 0 (⟨n, hb⟩ : Fin cfg0.N)) (iblk m c 1 (⟨n, hb⟩ : Fin cfg0.N)) acc (iblk m c 6 (⟨n, hb⟩ : Fin cfg0.N)) (iblk m c 7 (⟨n, hb⟩ : Fin cfg0.N)) p q).trans ?_
    unfold add0 blockDot
    rw [dif_pos hb]
    all_goals rfl
  · rw [dif_neg h0, dif_neg h1]
    refine (congrFun (Cert.KernelIdeal.Pieces.sout_B_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2) (ix2 p q)).trans ?_
    refine (Cert.KernelIdeal.Addends.pay10_apply (iblk m c 0 (⟨n, hb⟩ : Fin cfg0.N)) (iblk m c 1 (⟨n, hb⟩ : Fin cfg0.N)) acc (iblk m c 6 (⟨n, hb⟩ : Fin cfg0.N)) (iblk m c 7 (⟨n, hb⟩ : Fin cfg0.N)) p q).trans ?_
    unfold add0 blockDot
    rw [dif_pos hb]
    all_goals rfl

/-- After the last step of a row tile the running sum is zero plus the eight steps' contributions. -/
theorem fold0 (t : Fin cfg0.N) (h7 : t.val % 8 = 7) (p : Fin 128) (q : Fin 2048) :
    (outsAt0 m c t.val t.isLt).2.1 (ix2 p q) = 0 + ∑ s ∈ Finset.range 8, add0 m c (8 * (t.val / 8) + s) p q := by
  rw [Value.soutsAt0_0_eq m c t]
  have key := Pipeline.accAt_add_apply (N := cfg0.N) (ι := S128x2048.Idx) (β := EReal)
    (fun n h => Value.scAt0_0 m c n h (VS0_0.read (Elt Ideal) VS0_0.junk)) (Value.scAt0_0 m c)
    (fun _ => (0 : EReal)) (fun n i => add0 m c n (i 0) (i 1)) (8 * (t.val / 8)) 7
    (fun h i => by
      obtain ⟨p, q, rfl⟩ : ∃ (p : Fin 128) (q : Fin 2048), i = ix2 p q := ⟨i 0, i 1, eq_ix2 i⟩
      exact reset0 m c _ h (by omega) _ p q)
    (fun n h acc i hlt hle => by
      obtain ⟨p, q, rfl⟩ : ∃ (p : Fin 128) (q : Fin 2048), i = ix2 p q := ⟨i 0, i 1, eq_ix2 i⟩
      exact step0 m c n h (by omega) acc p q)
    (t.val % 8) (by omega) (by have h1 := t.isLt; have h2 := Nat.div_add_mod t.val 8; omega) (ix2 p q)
  rw [key, h7]

/-- A step's contribution in terms of the argument arrays. -/
theorem add0_at (t : Fin cfg0.N) (s : ℕ) (hs : s < 8) (p : Fin 128) (q : Fin 2048) (P : Fin 4096)
    (hP : P.val = 128 * (t.val / 8) + p.val) :
    add0 m c (8 * (t.val / 8) + s) p q
      = ((∑ j : Fin 256, (prodT (m ((c : Thread nD τ).loc main_arg0)) (m ((c : Thread nD τ).loc main_arg9)) P q) (256 * s + j.val)) + (∑ j : Fin 256, (prodT (m ((c : Thread nD τ).loc main_arg1)) (m ((c : Thread nD τ).loc main_arg11)) P q) (256 * s + j.val))) := by
  have hN : cfg0.N = 256 := N_0
  have ht : t.val < 256 := lt_of_lt_of_eq t.isLt hN
  have hb : 8 * (t.val / 8) + s < cfg0.N := lt_of_lt_of_eq (show 8 * (t.val / 8) + s < 256 by omega) hN.symm
  have hP' : P.val = 128 * ((8 * (t.val / 8) + s) / 8) + p.val := by omega
  unfold add0 blockDot
  rw [dif_pos hb]
  have hk : ∀ j : Fin 256, 256 * s + j.val < 2048 := fun j => by have := j.isLt; omega
  have hK : ∀ j : Fin 256, (⟨256 * s + j.val, hk j⟩ : Fin 2048).val = 256 * ((8 * (t.val / 8) + s) % 8) + j.val := fun j => by
    show 256 * s + j.val = 256 * ((8 * (t.val / 8) + s) % 8) + j.val; omega
  exact (congrArg₂ (fun a b : EReal => a + b) (Finset.sum_congr rfl fun j _ => by
      unfold prodT
      rw [Cert.Regroup.tot_lt _ (hk j)]
      exact congrArg₂ (fun a b : EReal => a * b) (Cert.KernelIdeal.Blocks.iblk0_apply m c ⟨8 * (t.val / 8) + s, hb⟩ p j P ⟨256 * s + j.val, hk j⟩ hP' (hK j)) (Cert.KernelIdeal.Blocks.iblk6_apply m c ⟨8 * (t.val / 8) + s, hb⟩ j q ⟨256 * s + j.val, hk j⟩ (hK j))) (Finset.sum_congr rfl fun j _ => by
      unfold prodT
      rw [Cert.Regroup.tot_lt _ (hk j)]
      exact congrArg₂ (fun a b : EReal => a * b) (Cert.KernelIdeal.Blocks.iblk1_apply m c ⟨8 * (t.val / 8) + s, hb⟩ p j P ⟨256 * s + j.val, hk j⟩ hP' (hK j)) (Cert.KernelIdeal.Blocks.iblk7_apply m c ⟨8 * (t.val / 8) + s, hb⟩ j q ⟨256 * s + j.val, hk j⟩ (hK j))))

/-- The gate's pre-activation: the running sum after the last step plus the combined bias row is the
    specification's sum of linear layers. -/
theorem pre0 (t : Fin cfg0.N) (h7 : t.val % 8 = 7) (p : Fin 128) (q : Fin 2048) (P : Fin 4096)
    (hP : P.val = 128 * (t.val / 8) + p.val) (b : FVec Ideal S1x2048 .f32) (hbias : b = iblk m c 12 t) :
    (outsAt0 m c t.val t.isLt).2.1 (ix2 p q) + b (ix2 (0 : Fin 1) q)
      = Cert.Spec.lin (m ((c : Thread nD τ).loc main_arg0)) (m ((c : Thread nD τ).loc main_arg9)) (m ((c : Thread nD τ).loc main_arg10)) P q + Cert.Spec.lin (m ((c : Thread nD τ).loc main_arg1)) (m ((c : Thread nD τ).loc main_arg11)) (m ((c : Thread nD τ).loc main_arg12)) P q := by
  subst hbias
  rw [fold0 m c t h7 p q, Cert.KernelIdeal.Blocks.iblk12_apply m c t q,
    Finset.sum_congr rfl fun s hs => add0_at m c t s (Finset.mem_range.mp hs) p q P hP]
  refine (Cert.Regroup.two_layers (prodT (m ((c : Thread nD τ).loc main_arg0)) (m ((c : Thread nD τ).loc main_arg9)) P q) (prodT (m ((c : Thread nD τ).loc main_arg1)) (m ((c : Thread nD τ).loc main_arg11)) P q) ((m ((c : Thread nD τ).loc main_arg10)) (ix1 q) : EReal) ((m ((c : Thread nD τ).loc main_arg12)) (ix1 q) : EReal)).trans ?_
  rw [sum_prodT, sum_prodT]
  rfl

/-! ## Running sum 1 -/

/-- What grid point n adds to running sum 1 at (p, q). -/
def add1 (n : ℕ) (p : Fin 128) (q : Fin 2048) : EReal :=
  if hb : n < cfg0.N then
    ((blockDot (iblk m c 0 (⟨n, hb⟩ : Fin cfg0.N)) (iblk m c 3 (⟨n, hb⟩ : Fin cfg0.N)) p q + blockDot (Cert.KernelIdeal.Pieces.memSlice (grid0.coords (⟨n, hb⟩ : Fin cfg0.N)) (iblk m c 2 (⟨n, hb⟩ : Fin cfg0.N))) (iblk m c 5 (⟨n, hb⟩ : Fin cfg0.N)) p q) + blockDot (iblk m c 1 (⟨n, hb⟩ : Fin cfg0.N)) (iblk m c 4 (⟨n, hb⟩ : Fin cfg0.N)) p q)
  else 0

/-- The first step of a row tile leaves zero plus its contribution. -/
theorem reset1 (n : ℕ) (hb : n < cfg0.N) (h0 : n % 8 = 0) (acc : Vec Ideal S128x2048 .f32) (p : Fin 128) (q : Fin 2048) :
    Value.scAt0_1 m c n hb acc (ix2 p q) = 0 + add1 m c n p q := by
  have h1 : ¬n % 8 = 7 := by omega
  unfold Value.scAt0_1
  rw [dif_pos h0, dif_neg h1]
  refine (congrFun (Cert.KernelIdeal.Pieces.sout_A_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N))) (ix2 p q)).trans ?_
  refine (Cert.KernelIdeal.Addends.step1_apply (iblk m c 0 (⟨n, hb⟩ : Fin cfg0.N)) (iblk m c 1 (⟨n, hb⟩ : Fin cfg0.N)) (Cert.KernelIdeal.Pieces.memSlice (grid0.coords (⟨n, hb⟩ : Fin cfg0.N)) (iblk m c 2 (⟨n, hb⟩ : Fin cfg0.N))) (iblk m c 3 (⟨n, hb⟩ : Fin cfg0.N)) (iblk m c 4 (⟨n, hb⟩ : Fin cfg0.N)) (iblk m c 5 (⟨n, hb⟩ : Fin cfg0.N)) (k0_pay5 (F := Ideal)) p q).trans ?_
  rw [Cert.KernelIdeal.Addends.zero5]
  unfold add1 blockDot
  rw [dif_pos hb]
  all_goals rfl

/-- Every later step adds its contribution to what the step before left. -/
theorem step1 (n : ℕ) (hb : n < cfg0.N) (h0 : ¬n % 8 = 0) (acc : Vec Ideal S128x2048 .f32) (p : Fin 128) (q : Fin 2048) :
    Value.scAt0_1 m c n hb acc (ix2 p q) = acc (ix2 p q) + add1 m c n p q := by
  unfold Value.scAt0_1
  by_cases h1 : n % 8 = 7
  · rw [dif_neg h0, dif_pos h1]
    refine (congrFun (Cert.KernelIdeal.Pieces.sout_C_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2) (ix2 p q)).trans ?_
    refine (Cert.KernelIdeal.Addends.step1_apply (iblk m c 0 (⟨n, hb⟩ : Fin cfg0.N)) (iblk m c 1 (⟨n, hb⟩ : Fin cfg0.N)) (Cert.KernelIdeal.Pieces.memSlice (grid0.coords (⟨n, hb⟩ : Fin cfg0.N)) (iblk m c 2 (⟨n, hb⟩ : Fin cfg0.N))) (iblk m c 3 (⟨n, hb⟩ : Fin cfg0.N)) (iblk m c 4 (⟨n, hb⟩ : Fin cfg0.N)) (iblk m c 5 (⟨n, hb⟩ : Fin cfg0.N)) acc p q).trans ?_
    unfold add1 blockDot
    rw [dif_pos hb]
    all_goals rfl
  · rw [dif_neg h0, dif_neg h1]
    refine (congrFun (Cert.KernelIdeal.Pieces.sout_B_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2) (ix2 p q)).trans ?_
    refine (Cert.KernelIdeal.Addends.step1_apply (iblk m c 0 (⟨n, hb⟩ : Fin cfg0.N)) (iblk m c 1 (⟨n, hb⟩ : Fin cfg0.N)) (Cert.KernelIdeal.Pieces.memSlice (grid0.coords (⟨n, hb⟩ : Fin cfg0.N)) (iblk m c 2 (⟨n, hb⟩ : Fin cfg0.N))) (iblk m c 3 (⟨n, hb⟩ : Fin cfg0.N)) (iblk m c 4 (⟨n, hb⟩ : Fin cfg0.N)) (iblk m c 5 (⟨n, hb⟩ : Fin cfg0.N)) acc p q).trans ?_
    unfold add1 blockDot
    rw [dif_pos hb]
    all_goals rfl

/-- After the last step of a row tile the running sum is zero plus the eight steps' contributions. -/
theorem fold1 (t : Fin cfg0.N) (h7 : t.val % 8 = 7) (p : Fin 128) (q : Fin 2048) :
    (outsAt0 m c t.val t.isLt).2.2.1 (ix2 p q) = 0 + ∑ s ∈ Finset.range 8, add1 m c (8 * (t.val / 8) + s) p q := by
  rw [Value.soutsAt0_1_eq m c t]
  have key := Pipeline.accAt_add_apply (N := cfg0.N) (ι := S128x2048.Idx) (β := EReal)
    (fun n h => Value.scAt0_1 m c n h (VS0_1.read (Elt Ideal) VS0_1.junk)) (Value.scAt0_1 m c)
    (fun _ => (0 : EReal)) (fun n i => add1 m c n (i 0) (i 1)) (8 * (t.val / 8)) 7
    (fun h i => by
      obtain ⟨p, q, rfl⟩ : ∃ (p : Fin 128) (q : Fin 2048), i = ix2 p q := ⟨i 0, i 1, eq_ix2 i⟩
      exact reset1 m c _ h (by omega) _ p q)
    (fun n h acc i hlt hle => by
      obtain ⟨p, q, rfl⟩ : ∃ (p : Fin 128) (q : Fin 2048), i = ix2 p q := ⟨i 0, i 1, eq_ix2 i⟩
      exact step1 m c n h (by omega) acc p q)
    (t.val % 8) (by omega) (by have h1 := t.isLt; have h2 := Nat.div_add_mod t.val 8; omega) (ix2 p q)
  rw [key, h7]

/-- A step's contribution in terms of the argument arrays. -/
theorem add1_at (t : Fin cfg0.N) (s : ℕ) (hs : s < 8) (p : Fin 128) (q : Fin 2048) (P : Fin 4096)
    (hP : P.val = 128 * (t.val / 8) + p.val) :
    add1 m c (8 * (t.val / 8) + s) p q
      = (((∑ j : Fin 256, (prodT (m ((c : Thread nD τ).loc main_arg0)) (m ((c : Thread nD τ).loc main_arg3)) P q) (256 * s + j.val)) + (∑ j : Fin 256, (prodT (m ((c : Thread nD τ).loc main_arg2)) (m ((c : Thread nD τ).loc main_arg7)) P q) (256 * s + j.val))) + (∑ j : Fin 256, (prodT (m ((c : Thread nD τ).loc main_arg1)) (m ((c : Thread nD τ).loc main_arg5)) P q) (256 * s + j.val))) := by
  have hN : cfg0.N = 256 := N_0
  have ht : t.val < 256 := lt_of_lt_of_eq t.isLt hN
  have hb : 8 * (t.val / 8) + s < cfg0.N := lt_of_lt_of_eq (show 8 * (t.val / 8) + s < 256 by omega) hN.symm
  have hP' : P.val = 128 * ((8 * (t.val / 8) + s) / 8) + p.val := by omega
  unfold add1 blockDot
  rw [dif_pos hb]
  have hk : ∀ j : Fin 256, 256 * s + j.val < 2048 := fun j => by have := j.isLt; omega
  have hK : ∀ j : Fin 256, (⟨256 * s + j.val, hk j⟩ : Fin 2048).val = 256 * ((8 * (t.val / 8) + s) % 8) + j.val := fun j => by
    show 256 * s + j.val = 256 * ((8 * (t.val / 8) + s) % 8) + j.val; omega
  exact (congrArg₂ (fun a b : EReal => a + b) (congrArg₂ (fun a b : EReal => a + b) (Finset.sum_congr rfl fun j _ => by
      unfold prodT
      rw [Cert.Regroup.tot_lt _ (hk j)]
      exact congrArg₂ (fun a b : EReal => a * b) (Cert.KernelIdeal.Blocks.iblk0_apply m c ⟨8 * (t.val / 8) + s, hb⟩ p j P ⟨256 * s + j.val, hk j⟩ hP' (hK j)) (Cert.KernelIdeal.Blocks.iblk3_apply m c ⟨8 * (t.val / 8) + s, hb⟩ j q ⟨256 * s + j.val, hk j⟩ (hK j))) (Finset.sum_congr rfl fun j _ => by
      unfold prodT
      rw [Cert.Regroup.tot_lt _ (hk j)]
      exact congrArg₂ (fun a b : EReal => a * b) (memSlice_apply m c ⟨8 * (t.val / 8) + s, hb⟩ p j P ⟨256 * s + j.val, hk j⟩ hP' (hK j)) (Cert.KernelIdeal.Blocks.iblk5_apply m c ⟨8 * (t.val / 8) + s, hb⟩ j q ⟨256 * s + j.val, hk j⟩ (hK j)))) (Finset.sum_congr rfl fun j _ => by
      unfold prodT
      rw [Cert.Regroup.tot_lt _ (hk j)]
      exact congrArg₂ (fun a b : EReal => a * b) (Cert.KernelIdeal.Blocks.iblk1_apply m c ⟨8 * (t.val / 8) + s, hb⟩ p j P ⟨256 * s + j.val, hk j⟩ hP' (hK j)) (Cert.KernelIdeal.Blocks.iblk4_apply m c ⟨8 * (t.val / 8) + s, hb⟩ j q ⟨256 * s + j.val, hk j⟩ (hK j))))

/-- The gate's pre-activation: the running sum after the last step plus the combined bias row is the
    specification's sum of linear layers. -/
theorem pre1 (t : Fin cfg0.N) (h7 : t.val % 8 = 7) (p : Fin 128) (q : Fin 2048) (P : Fin 4096)
    (hP : P.val = 128 * (t.val / 8) + p.val) (b : FVec Ideal S1x2048 .f32) (hbias : b = iblk m c 13 t) :
    (outsAt0 m c t.val t.isLt).2.2.1 (ix2 p q) + b (ix2 (0 : Fin 1) q)
      = (Cert.Spec.lin (m ((c : Thread nD τ).loc main_arg0)) (m ((c : Thread nD τ).loc main_arg3)) (m ((c : Thread nD τ).loc main_arg4)) P q + Cert.Spec.lin (m ((c : Thread nD τ).loc main_arg2)) (m ((c : Thread nD τ).loc main_arg7)) (m ((c : Thread nD τ).loc main_arg8)) P q) + Cert.Spec.lin (m ((c : Thread nD τ).loc main_arg1)) (m ((c : Thread nD τ).loc main_arg5)) (m ((c : Thread nD τ).loc main_arg6)) P q := by
  subst hbias
  rw [fold1 m c t h7 p q, Cert.KernelIdeal.Blocks.iblk13_apply m c t q,
    Finset.sum_congr rfl fun s hs => add1_at m c t s (Finset.mem_range.mp hs) p q P hP]
  refine (Cert.Regroup.three_layers (prodT (m ((c : Thread nD τ).loc main_arg0)) (m ((c : Thread nD τ).loc main_arg3)) P q) (prodT (m ((c : Thread nD τ).loc main_arg2)) (m ((c : Thread nD τ).loc main_arg7)) P q) (prodT (m ((c : Thread nD τ).loc main_arg1)) (m ((c : Thread nD τ).loc main_arg5)) P q) ((m ((c : Thread nD τ).loc main_arg4)) (ix1 q) : EReal) ((m ((c : Thread nD τ).loc main_arg8)) (ix1 q) : EReal) ((m ((c : Thread nD τ).loc main_arg6)) (ix1 q) : EReal)).trans ?_
  rw [sum_prodT, sum_prodT, sum_prodT]
  rfl

/-! ## Running sum 2 -/

/-- What grid point n adds to running sum 2 at (p, q). -/
def add2 (n : ℕ) (p : Fin 128) (q : Fin 2048) : EReal :=
  if hb : n < cfg0.N then
    ((blockDot (iblk m c 0 (⟨n, hb⟩ : Fin cfg0.N)) (iblk m c 8 (⟨n, hb⟩ : Fin cfg0.N)) p q + blockDot (Cert.KernelIdeal.Pieces.memSlice (grid0.coords (⟨n, hb⟩ : Fin cfg0.N)) (iblk m c 2 (⟨n, hb⟩ : Fin cfg0.N))) (iblk m c 10 (⟨n, hb⟩ : Fin cfg0.N)) p q) + blockDot (iblk m c 1 (⟨n, hb⟩ : Fin cfg0.N)) (iblk m c 9 (⟨n, hb⟩ : Fin cfg0.N)) p q)
  else 0

/-- The first step of a row tile leaves zero plus its contribution. -/
theorem reset2 (n : ℕ) (hb : n < cfg0.N) (h0 : n % 8 = 0) (acc : Vec Ideal S128x2048 .f32) (p : Fin 128) (q : Fin 2048) :
    Value.scAt0_2 m c n hb acc (ix2 p q) = 0 + add2 m c n p q := by
  have h1 : ¬n % 8 = 7 := by omega
  unfold Value.scAt0_2
  rw [dif_pos h0, dif_neg h1]
  refine (congrFun (Cert.KernelIdeal.Pieces.sout_A_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N))) (ix2 p q)).trans ?_
  refine (Cert.KernelIdeal.Addends.step2_apply (iblk m c 0 (⟨n, hb⟩ : Fin cfg0.N)) (iblk m c 1 (⟨n, hb⟩ : Fin cfg0.N)) (Cert.KernelIdeal.Pieces.memSlice (grid0.coords (⟨n, hb⟩ : Fin cfg0.N)) (iblk m c 2 (⟨n, hb⟩ : Fin cfg0.N))) (iblk m c 8 (⟨n, hb⟩ : Fin cfg0.N)) (iblk m c 9 (⟨n, hb⟩ : Fin cfg0.N)) (iblk m c 10 (⟨n, hb⟩ : Fin cfg0.N)) (k0_pay6 (F := Ideal)) p q).trans ?_
  rw [Cert.KernelIdeal.Addends.zero6]
  unfold add2 blockDot
  rw [dif_pos hb]
  all_goals rfl

/-- Every later step adds its contribution to what the step before left. -/
theorem step2 (n : ℕ) (hb : n < cfg0.N) (h0 : ¬n % 8 = 0) (acc : Vec Ideal S128x2048 .f32) (p : Fin 128) (q : Fin 2048) :
    Value.scAt0_2 m c n hb acc (ix2 p q) = acc (ix2 p q) + add2 m c n p q := by
  unfold Value.scAt0_2
  by_cases h1 : n % 8 = 7
  · rw [dif_neg h0, dif_pos h1]
    refine (congrFun (Cert.KernelIdeal.Pieces.sout_C_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc) (ix2 p q)).trans ?_
    refine (Cert.KernelIdeal.Addends.step2_apply (iblk m c 0 (⟨n, hb⟩ : Fin cfg0.N)) (iblk m c 1 (⟨n, hb⟩ : Fin cfg0.N)) (Cert.KernelIdeal.Pieces.memSlice (grid0.coords (⟨n, hb⟩ : Fin cfg0.N)) (iblk m c 2 (⟨n, hb⟩ : Fin cfg0.N))) (iblk m c 8 (⟨n, hb⟩ : Fin cfg0.N)) (iblk m c 9 (⟨n, hb⟩ : Fin cfg0.N)) (iblk m c 10 (⟨n, hb⟩ : Fin cfg0.N)) acc p q).trans ?_
    unfold add2 blockDot
    rw [dif_pos hb]
    all_goals rfl
  · rw [dif_neg h0, dif_neg h1]
    refine (congrFun (Cert.KernelIdeal.Pieces.sout_B_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc) (ix2 p q)).trans ?_
    refine (Cert.KernelIdeal.Addends.step2_apply (iblk m c 0 (⟨n, hb⟩ : Fin cfg0.N)) (iblk m c 1 (⟨n, hb⟩ : Fin cfg0.N)) (Cert.KernelIdeal.Pieces.memSlice (grid0.coords (⟨n, hb⟩ : Fin cfg0.N)) (iblk m c 2 (⟨n, hb⟩ : Fin cfg0.N))) (iblk m c 8 (⟨n, hb⟩ : Fin cfg0.N)) (iblk m c 9 (⟨n, hb⟩ : Fin cfg0.N)) (iblk m c 10 (⟨n, hb⟩ : Fin cfg0.N)) acc p q).trans ?_
    unfold add2 blockDot
    rw [dif_pos hb]
    all_goals rfl

/-- After the last step of a row tile the running sum is zero plus the eight steps' contributions. -/
theorem fold2 (t : Fin cfg0.N) (h7 : t.val % 8 = 7) (p : Fin 128) (q : Fin 2048) :
    (outsAt0 m c t.val t.isLt).2.2.2 (ix2 p q) = 0 + ∑ s ∈ Finset.range 8, add2 m c (8 * (t.val / 8) + s) p q := by
  rw [Value.soutsAt0_2_eq m c t]
  have key := Pipeline.accAt_add_apply (N := cfg0.N) (ι := S128x2048.Idx) (β := EReal)
    (fun n h => Value.scAt0_2 m c n h (VS0_2.read (Elt Ideal) VS0_2.junk)) (Value.scAt0_2 m c)
    (fun _ => (0 : EReal)) (fun n i => add2 m c n (i 0) (i 1)) (8 * (t.val / 8)) 7
    (fun h i => by
      obtain ⟨p, q, rfl⟩ : ∃ (p : Fin 128) (q : Fin 2048), i = ix2 p q := ⟨i 0, i 1, eq_ix2 i⟩
      exact reset2 m c _ h (by omega) _ p q)
    (fun n h acc i hlt hle => by
      obtain ⟨p, q, rfl⟩ : ∃ (p : Fin 128) (q : Fin 2048), i = ix2 p q := ⟨i 0, i 1, eq_ix2 i⟩
      exact step2 m c n h (by omega) acc p q)
    (t.val % 8) (by omega) (by have h1 := t.isLt; have h2 := Nat.div_add_mod t.val 8; omega) (ix2 p q)
  rw [key, h7]

/-- A step's contribution in terms of the argument arrays. -/
theorem add2_at (t : Fin cfg0.N) (s : ℕ) (hs : s < 8) (p : Fin 128) (q : Fin 2048) (P : Fin 4096)
    (hP : P.val = 128 * (t.val / 8) + p.val) :
    add2 m c (8 * (t.val / 8) + s) p q
      = (((∑ j : Fin 256, (prodT (m ((c : Thread nD τ).loc main_arg0)) (m ((c : Thread nD τ).loc main_arg13)) P q) (256 * s + j.val)) + (∑ j : Fin 256, (prodT (m ((c : Thread nD τ).loc main_arg2)) (m ((c : Thread nD τ).loc main_arg17)) P q) (256 * s + j.val))) + (∑ j : Fin 256, (prodT (m ((c : Thread nD τ).loc main_arg1)) (m ((c : Thread nD τ).loc main_arg15)) P q) (256 * s + j.val))) := by
  have hN : cfg0.N = 256 := N_0
  have ht : t.val < 256 := lt_of_lt_of_eq t.isLt hN
  have hb : 8 * (t.val / 8) + s < cfg0.N := lt_of_lt_of_eq (show 8 * (t.val / 8) + s < 256 by omega) hN.symm
  have hP' : P.val = 128 * ((8 * (t.val / 8) + s) / 8) + p.val := by omega
  unfold add2 blockDot
  rw [dif_pos hb]
  have hk : ∀ j : Fin 256, 256 * s + j.val < 2048 := fun j => by have := j.isLt; omega
  have hK : ∀ j : Fin 256, (⟨256 * s + j.val, hk j⟩ : Fin 2048).val = 256 * ((8 * (t.val / 8) + s) % 8) + j.val := fun j => by
    show 256 * s + j.val = 256 * ((8 * (t.val / 8) + s) % 8) + j.val; omega
  exact (congrArg₂ (fun a b : EReal => a + b) (congrArg₂ (fun a b : EReal => a + b) (Finset.sum_congr rfl fun j _ => by
      unfold prodT
      rw [Cert.Regroup.tot_lt _ (hk j)]
      exact congrArg₂ (fun a b : EReal => a * b) (Cert.KernelIdeal.Blocks.iblk0_apply m c ⟨8 * (t.val / 8) + s, hb⟩ p j P ⟨256 * s + j.val, hk j⟩ hP' (hK j)) (Cert.KernelIdeal.Blocks.iblk8_apply m c ⟨8 * (t.val / 8) + s, hb⟩ j q ⟨256 * s + j.val, hk j⟩ (hK j))) (Finset.sum_congr rfl fun j _ => by
      unfold prodT
      rw [Cert.Regroup.tot_lt _ (hk j)]
      exact congrArg₂ (fun a b : EReal => a * b) (memSlice_apply m c ⟨8 * (t.val / 8) + s, hb⟩ p j P ⟨256 * s + j.val, hk j⟩ hP' (hK j)) (Cert.KernelIdeal.Blocks.iblk10_apply m c ⟨8 * (t.val / 8) + s, hb⟩ j q ⟨256 * s + j.val, hk j⟩ (hK j)))) (Finset.sum_congr rfl fun j _ => by
      unfold prodT
      rw [Cert.Regroup.tot_lt _ (hk j)]
      exact congrArg₂ (fun a b : EReal => a * b) (Cert.KernelIdeal.Blocks.iblk1_apply m c ⟨8 * (t.val / 8) + s, hb⟩ p j P ⟨256 * s + j.val, hk j⟩ hP' (hK j)) (Cert.KernelIdeal.Blocks.iblk9_apply m c ⟨8 * (t.val / 8) + s, hb⟩ j q ⟨256 * s + j.val, hk j⟩ (hK j))))

/-- The gate's pre-activation: the running sum after the last step plus the combined bias row is the
    specification's sum of linear layers. -/
theorem pre2 (t : Fin cfg0.N) (h7 : t.val % 8 = 7) (p : Fin 128) (q : Fin 2048) (P : Fin 4096)
    (hP : P.val = 128 * (t.val / 8) + p.val) (b : FVec Ideal S1x2048 .f32) (hbias : b = iblk m c 14 t) :
    (outsAt0 m c t.val t.isLt).2.2.2 (ix2 p q) + b (ix2 (0 : Fin 1) q)
      = (Cert.Spec.lin (m ((c : Thread nD τ).loc main_arg0)) (m ((c : Thread nD τ).loc main_arg13)) (m ((c : Thread nD τ).loc main_arg14)) P q + Cert.Spec.lin (m ((c : Thread nD τ).loc main_arg2)) (m ((c : Thread nD τ).loc main_arg17)) (m ((c : Thread nD τ).loc main_arg18)) P q) + Cert.Spec.lin (m ((c : Thread nD τ).loc main_arg1)) (m ((c : Thread nD τ).loc main_arg15)) (m ((c : Thread nD τ).loc main_arg16)) P q := by
  subst hbias
  rw [fold2 m c t h7 p q, Cert.KernelIdeal.Blocks.iblk14_apply m c t q,
    Finset.sum_congr rfl fun s hs => add2_at m c t s (Finset.mem_range.mp hs) p q P hP]
  refine (Cert.Regroup.three_layers (prodT (m ((c : Thread nD τ).loc main_arg0)) (m ((c : Thread nD τ).loc main_arg13)) P q) (prodT (m ((c : Thread nD τ).loc main_arg2)) (m ((c : Thread nD τ).loc main_arg17)) P q) (prodT (m ((c : Thread nD τ).loc main_arg1)) (m ((c : Thread nD τ).loc main_arg15)) P q) ((m ((c : Thread nD τ).loc main_arg14)) (ix1 q) : EReal) ((m ((c : Thread nD τ).loc main_arg18)) (ix1 q) : EReal) ((m ((c : Thread nD τ).loc main_arg16)) (ix1 q) : EReal)).trans ?_
  rw [sum_prodT, sum_prodT, sum_prodT]
  rfl

end Cert.KernelIdeal.Fold

end
-- ==== Proof.Final.lean ====
/-
  The kernel's result array is the specification of its arguments.

  The output's staging block is written back only after the last step of a row tile; what it then holds is the
  epilogue applied to the three running sums as that step left them. Read at (p, q) of row tile r this is the
  specification at (128 r + p, q): the running sums plus their bias rows are the gates' pre-activations, the staged
  memory rows are the memory's, and the staged decoder weight is the decoder's transpose. The 32 row tiles' blocks
  cover the 4096 rows, so the whole array ends at the specification.
-/
import proofs.«132862_j54262616818001_2_alg».proof.Proof.Fold

set_option maxRecDepth 16384

noncomputable section

namespace Cert.KernelIdeal.Final

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (ρ : Dev nD → PrngReg)

/-- The specification of the launch contents of the arguments, as the result buffer's contents. -/
abbrev result (c : Dev nD) : Buf (Elt Ideal) ((c : Thread nD τ).loc main_v27) :=
  Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- The running sums a last step leaves are the updates of what the step before left. -/
theorem sums_at (c : Dev nD) (t : Fin cfg0.N) (h0 : ¬t.val % 8 = 0) (h1 : t.val % 8 = 7) :
    (Cert.KernelIdeal.Pieces.upd0 (F := Ideal) (iblk m c 0 t) (iblk m c 1 t) (outsAt0 m c (t.val - 1) (Nat.lt_of_le_of_lt (Nat.sub_le _ _) t.isLt)).2.1 (iblk m c 6 t) (iblk m c 7 t)) = (outsAt0 m c t.val t.isLt).2.1
    ∧ (Cert.KernelIdeal.Pieces.upd1 (F := Ideal) (grid0.coords t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1) = (outsAt0 m c t.val t.isLt).2.2.1
    ∧ (Cert.KernelIdeal.Pieces.upd2 (F := Ideal) (grid0.coords t) (iblk m c 0 t) (iblk m c 1 t) (iblk m c 2 t) (iblk m c 8 t) (iblk m c 9 t) (iblk m c 10 t) (outsAt0 m c (t.val - 1) (Nat.lt_of_le_of_lt (Nat.sub_le _ _) t.isLt)).2.2.2) = (outsAt0 m c t.val t.isLt).2.2.2 := by
  refine ⟨?_, ?_, ?_⟩
  · simp only [outsAt0_C m c t h0 h1]
    exact (Cert.KernelIdeal.Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm
  · simp only [outsAt0_C m c t h0 h1]
    exact (Cert.KernelIdeal.Pieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm
  · simp only [outsAt0_C m c t h0 h1]
    exact (Cert.KernelIdeal.Pieces.sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm

/-- What a writing-back point writes is its block of the specification. -/
theorem flushed_eq (c : Dev nD) (t : Fin cfg0.N) (hf : (cfg0.win 16).flush t = true) :
    (dats m 0 c).flushed 16 t = ((cfg0.win 16).blk t).view.read (Elt Ideal) (result m c) := by
  have h1 : t.val % 8 = 7 := (flush0_16 t).mp hf
  have h0 : ¬t.val % 8 = 0 := by omega
  have hN : cfg0.N = 256 := N_0
  have ht : t.val < 256 := lt_of_lt_of_eq t.isLt hN
  rw [Value.flushed16_C m c t h0 h1]
  funext y
  obtain ⟨p, q, rfl⟩ : ∃ (p : Fin 128) (q : Fin 2048), y = ix2 p q := ⟨y 0, y 1, eq_ix2 y⟩
  have hp := p.isLt
  have hPlt : 128 * (t.val / 8) + p.val < 4096 := by omega
  have hemb : ((cfg0.win 16).blk t).view.emb (ix2 p q)
      = (ix2 (⟨128 * (t.val / 8) + p.val, hPlt⟩ : Fin 4096) q : S4096x2048.Idx) := funext fun a => Fin.ext (by
    match a with
    | ⟨0, _⟩ => show win0_16.index t 0 * 128 + 1 * p.val = 128 * (t.val / 8) + p.val; rw [(Cert.KernelIdeal.Blocks.idx16 t).1]; omega
    | ⟨1, _⟩ => show win0_16.index t 1 * 2048 + 1 * q.val = q.val; rw [(Cert.KernelIdeal.Blocks.idx16 t).2]; omega)
  show out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 p q) = result m c (((cfg0.win 16).blk t).view.emb (ix2 p q))
  rw [hemb]
  obtain ⟨E0, E1, E2⟩ := sums_at m c t h0 h1
  refine (congrFun (Cert.KernelIdeal.Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p q)).trans ?_
  rw [E0, E1, E2]
  refine (Cert.KernelIdeal.Addends.pay3_apply (outsAt0 m c t.val t.isLt).2.1 (iblk m c 12 t) (outsAt0 m c t.val t.isLt).2.2.1
    (iblk m c 13 t) (outsAt0 m c t.val t.isLt).2.2.2 (iblk m c 14 t) (iblk m c 2 t) (iblk m c 11 t) (iblk m c 15 t) p q).trans ?_
  rw [Cert.KernelIdeal.Fold.pre0 m c t h1 p q ⟨128 * (t.val / 8) + p.val, hPlt⟩ rfl (iblk m c 12 t) rfl,
    Cert.KernelIdeal.Fold.pre1 m c t h1 p q ⟨128 * (t.val / 8) + p.val, hPlt⟩ rfl (iblk m c 13 t) rfl,
    Cert.KernelIdeal.Blocks.iblk15_apply m c t q,
    Finset.sum_congr rfl fun k _ => by
      rw [Cert.KernelIdeal.Fold.pre2 m c t h1 p k ⟨128 * (t.val / 8) + p.val, hPlt⟩ rfl (iblk m c 14 t) rfl,
        Cert.KernelIdeal.Blocks.iblk2_apply m c t p k ⟨128 * (t.val / 8) + p.val, hPlt⟩ rfl,
        Cert.KernelIdeal.Blocks.iblk11_apply m c t k q]]
  rfl

/-- An entry of the array lies in a point's block when its row lies in the point's row tile. -/
theorem mem_blk (t : Fin cfg0.N) (i : S4096x2048.Idx) :
    i ∈ ((cfg0.win 16).blk t).view.set ↔ ∀ a : Fin 2, win0_16.index t a * S128x2048.size a ≤ (i a).val
      ∧ (i a).val < win0_16.index t a * S128x2048.size a + S128x2048.size a := by
  show i ∈ ((View.whole main_v27).slice (win0_16.rect t)).set ↔ _
  rw [View.set_slice_whole, Rect.mem_set_unit]
  exact Iff.rfl

/-- Every entry lies in the block of the last step of its row tile. -/
theorem cover (i : S4096x2048.Idx) :
    ∃ t : Fin cfg0.N, (cfg0.win 16).flush t = true ∧ i ∈ ((cfg0.win 16).blk t).view.set := by
  have hi0 : (i 0).val < 4096 := (i 0).isLt
  have hi1 : (i 1).val < 2048 := (i 1).isLt
  have hN : cfg0.N = 256 := N_0
  have hlt : 8 * ((i 0).val / 128) + 7 < cfg0.N := by rw [hN]; omega
  refine ⟨⟨8 * ((i 0).val / 128) + 7, hlt⟩, (flush0_16 _).mpr (by show (8 * ((i 0).val / 128) + 7) % 8 = 7; omega), ?_⟩
  rw [mem_blk]
  obtain ⟨e0, e1⟩ := Cert.KernelIdeal.Blocks.idx16 ⟨8 * ((i 0).val / 128) + 7, hlt⟩
  have e0' : win0_16.index ⟨8 * ((i 0).val / 128) + 7, hlt⟩ 0 = (8 * ((i 0).val / 128) + 7) / 8 := e0
  intro a
  match a with
  | ⟨0, _⟩ =>
    show win0_16.index ⟨8 * ((i 0).val / 128) + 7, hlt⟩ 0 * 128 ≤ (i 0).val
      ∧ (i 0).val < win0_16.index ⟨8 * ((i 0).val / 128) + 7, hlt⟩ 0 * 128 + 128
    rw [e0']; omega
  | ⟨1, _⟩ =>
    show win0_16.index ⟨8 * ((i 0).val / 128) + 7, hlt⟩ 1 * 2048 ≤ (i 1).val
      ∧ (i 1).val < win0_16.index ⟨8 * ((i 0).val / 128) + 7, hlt⟩ 1 * 2048 + 2048
    rw [e1]; omega

/-- The result array after the run. -/
theorem final (c : Dev nD) : (dats m 0 c).arrAt 16 cfg0.N = result m c :=
  (dats m 0 c).arrAt_eq_of_cover 16 (result m c) (fun t hf => flushed_eq m c t hf) cover

/-- The kernel's run: its result is the specification of its arguments, which it leaves unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28) :=
  (θ_run defs _ _).mono (fun r h c => ⟨(h c).1.trans (final m c), (h c).2⟩) (Value.run_blocks m ρ)

end Cert.KernelIdeal.Final

end
-- ==== Proof.lean ====
/-
  A memory-gated recurrent cell: the tiled kernel against the plain reference, on the extended reals.

  Both programs return  hidden = decoder (readGate * mem0) + blockInp * inpGate,  each gate the logistic function of a sum
  of linear layers  v * W^T + b  of the input, the recurrent output and the memory (Proof/Spec.lean states it index by
  index). The reference computes every layer whole. The kernel works one tile of 128 rows at a time and cuts the 2048
  columns of the contraction into 8 blocks of 256: three running sums, zeroed at a tile's first block, collect the
  blocks' partial products of all the layers of one gate together, and at the last block the biases (which the host
  has added together beforehand) are added, the gates formed, and the decoder applied. The host also transposes the
  weights and narrows them to bfloat16, which changes nothing on the extended reals.

  So the two results differ only in the order and grouping of additions: a whole inner product against the sum of its 8
  blocks, the layers of a gate summed block by block against layer by layer, and the biases added together against
  each to its own layer. Addition on the extended reals is associative and commutative (Proof/Regroup.lean), so the
  results are equal whatever the data: the precondition that the inputs are finite is not used. The logistic
  function is one function on both sides: the kernel's single operation, and the reference's  1 / (1 + exp (-z)).

  The kernel's side: what a run of the body leaves in its buffers (Proof/Pieces.lean), its arithmetic at an entry
  (Proof/Addends.lean), what its windows hold (Proof/Blocks.lean), the running sums after a tile's last block
  (Proof/Fold.lean) and the result array (Proof/Final.lean). The reference's side: Proof/RefSpec.lean. The three
  frame claims are the generated frames of the two kernel programs and the reference's generated run; the
  idealization rewrote no operation, so what it must preserve is nothing.
-/
import proofs.«132862_j54262616818001_2_alg».proof.Defs
import proofs.«132862_j54262616818001_2_alg».proof.Proof.Gen.Kernel
import proofs.«132862_j54262616818001_2_alg».proof.Proof.Gen.Kernel.Frame
import proofs.«132862_j54262616818001_2_alg».proof.Proof.Gen.KernelIdeal
import proofs.«132862_j54262616818001_2_alg».proof.Proof.Gen.KernelIdeal.Frame
import proofs.«132862_j54262616818001_2_alg».proof.Proof.Gen.KernelIdeal.Value
import proofs.«132862_j54262616818001_2_alg».proof.Proof.Gen.ReferenceIdeal
import proofs.«132862_j54262616818001_2_alg».proof.Proof.Gen.ReferenceIdeal.Run
import proofs.«132862_j54262616818001_2_alg».proof.Proof.Gen.ReferenceIdeal.Read
import proofs.«132862_j54262616818001_2_alg».proof.Proof.Gen.Pre_finite_inputs
import proofs.«132862_j54262616818001_2_alg».proof.Proof.RefSpec
import proofs.«132862_j54262616818001_2_alg».proof.Proof.Final
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.ReferenceIdeal.RefSpec.result_eq]
  obtain ⟨a0, a1, a2, a3, a4, a5, a6, a7, a8, a9, a10, a11, a12, a13, a14, a15, a16, a17, a18, a19, a20, a21, a22, a23, a24, a25, a26, a27, a28⟩ := hagree c
  show Cert.Spec.hidden (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) = _
  rw [a0, a1, a2, a3, a4, a5, a6, a7, a8, a9, a10, a11, a12, a13, a14, a15, a16, a17, a18, a19, a20]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
